-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v88)) (v1 : (c : Dev Cert.KernelIdeal.nD) → Buf (Elt Ideal) ((c.tc : Thread Cert.KernelIdeal.nD Cert.KernelIdeal.τ).loc Cert.KernelIdeal.main_v89)) (v2 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v88) = v0 c
          ∧ r.2.mem ((c.tc : Thread Cert.KernelIdeal.nD Cert.KernelIdeal.τ).loc Cert.KernelIdeal.main_v89) = v1 c
          ∧ r.2.mem ((c.tc : Thread Cert.KernelIdeal.nD Cert.KernelIdeal.τ).loc Cert.KernelIdeal.main_v82) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_v99) = v1 c
          ∧ r.2.mem ((c.tc : Thread Cert.ReferenceIdeal.nD Cert.ReferenceIdeal.τ).loc Cert.ReferenceIdeal.main_v100) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x1 : Shape := ⟨2, ![131072, 1]⟩
abbrev S1024x1 : Shape := ⟨2, ![1024, 1]⟩
abbrev S1024 : Shape := ⟨1, ![1024]⟩
abbrev S2x1024 : Shape := ⟨2, ![2, 1024]⟩
abbrev S2 : Shape := ⟨1, ![2]⟩
abbrev S_ : Shape := ⟨0, ![]⟩

class Facts : Prop where
  bcast_S_S131072x1 : S_.BroadcastsInDim S131072x1 (![] : Fin 0 → Fin S131072x1.rank)
  reducesTo_S131072x1_S_d0_1 : S131072x1.ReducesTo [0, 1] S_
  h_S_ : 0 < S_.numel
  bcast_S_S1024x1 : S_.BroadcastsInDim S1024x1 (![] : Fin 0 → Fin S1024x1.rank)
  reducesTo_S1024x1_S_d0_1 : S1024x1.ReducesTo [0, 1] S_
  bcast_S_S1024 : S_.BroadcastsInDim S1024 (![] : Fin 0 → Fin S1024.rank)
  reducesTo_S1024_S_d0 : S1024.ReducesTo [0] S_
  bcast_S_S2x1024 : S_.BroadcastsInDim S2x1024 (![] : Fin 0 → Fin S2x1024.rank)
  reducesTo_S2x1024_S_d0_1 : S2x1024.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_arg11 : FVec F S2x1024 .f32) (main_arg12 : FVec F S2 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S2x1024 .f32 := Host.absf main_arg11
  let main_cst_20 : FVec F S_ .f32 := constant S_ .f32 0x7F800000#32
  let main_v55 : FVec F S2x1024 .f32 := broadcastInDim S2x1024 ![] bcast_S_S2x1024 main_cst_20
  let main_v56 : IVec S2x1024 1 := cmpf .olt main_v54 main_v55
  let main_c_21 : IVec S_ 1 := constantI S_ 1 1#1
  let main_v57 : IVec S_ 1 := (fun x v => Host.reduce IntOp.andi x v reducesTo_S2x1024_S_d0_1 h_S_) main_v56 main_c_21
  let main_v58 : IVec S_ 1 := andi main_v53 main_v57
  let main_v59 : FVec F S2 .f32 := Host.absf main_arg12
  let main_cst_22 : FVec F S_ .f32 := constant S_ .f32 0x7F800000#32
  let main_v60 : FVec F S2 .f32 := broadcastInDim S2 ![] bcast_S_S2 main_cst_22
  let main_v61 : IVec S2 1 := cmpf .olt main_v59 main_v60
  let main_c_23 : IVec S_ 1 := constantI S_ 1 1#1
  let main_v62 : IVec S_ 1 := (fun x v => Host.reduce IntOp.andi x v reducesTo_S2_S_d0 h_S_) main_v61 main_c_23
  let main_v63 : IVec S_ 1 := andi main_v58 main_v62
  main_v63

def fn_part2 {F : FTy → Type} [FloatOps F] (main_arg7 : FVec F S2 .f32) (main_arg8 : FVec F S2 .f32) (main_arg9 : FVec F S1024x1 .f32) (main_arg10 : FVec F S1024 .f32) (main_arg11 : FVec F S2x1024 .f32) (main_arg12 : FVec F S2 .f32) (main_v33 : IVec S_ 1) : IVec S_ 1 :=
  let main_v34 : FVec F S2 .f32 := Host.absf main_arg7
  let main_cst_12 : FVec F S_ .f32 := constant S_ .f32 0x7F800000#32
  let main_v35 : FVec F S2 .f32 := broadcastInDim S2 ![] bcast_S_S2 main_cst_12
  let main_v36 : IVec S2 1 := cmpf .olt main_v34 main_v35
  let main_c_13 : IVec S_ 1 := constantI S_ 1 1#1
  let main_v37 : IVec S_ 1 := (fun x v => Host.reduce IntOp.andi x v reducesTo_S2_S_d0 h_S_) main_v36 main_c_13
  let main_v38 : IVec S_ 1 := andi main_v33 main_v37
  let main_v39 : FVec F S2 .f32 := Host.absf main_arg8
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  let main_v44 : FVec F S1024x1 .f32 := Host.absf main_arg9
  let main_cst_16 : FVec F S_ .f32 := constant S_ .f32 0x7F800000#32
  let main_v45 : FVec F S1024x1 .f32 := broadcastInDim S1024x1 ![] bcast_S_S1024x1 main_cst_16
  let main_v46 : IVec S1024x1 1 := cmpf .olt main_v44 main_v45
  let main_c_17 : IVec S_ 1 := constantI S_ 1 1#1
  let main_v47 : IVec S_ 1 := (fun x v => Host.reduce IntOp.andi x v reducesTo_S1024x1_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_v48 main_v49 main_v50

def fn_part1 {F : FTy → Type} [FloatOps F] (main_arg4 : FVec F S1024 .f32) (main_arg5 : FVec F S2x1024 .f32) (main_arg6 : FVec F S2x1024 .f32) (main_arg7 : FVec F S2 .f32) (main_arg8 : FVec F S2 .f32) (main_arg9 : FVec F S1024x1 .f32) (main_arg10 : FVec F S1024 .f32) (main_arg11 : FVec F S2x1024 .f32) (main_arg12 : FVec F S2 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S2x1024 .f32 := Host.absf main_arg5
  let main_cst_8 : FVec F S_ .f32 := constant S_ .f32 0x7F800000#32
  let main_v25 : FVec F S2x1024 .f32 := broadcastInDim S2x1024 ![] bcast_S_S2x1024 main_cst_8
  let main_v26 : IVec S2x1024 1 := cmpf .olt main_v24 main_v25
  let main_c_9 : IVec S_ 1 := constantI S_ 1 1#1
  let main_v27 : IVec S_ 1 := (fun x v => Host.reduce IntOp.andi x v reducesTo_S2x1024_S_d0_1 h_S_) main_v26 main_c_9
  let main_v28 : IVec S_ 1 := andi main_v23 main_v27
  let main_v29 : FVec F S2x1024 .f32 := Host.absf main_arg6
  let main_cst_10 : FVec F S_ .f32 := constant S_ .f32 0x7F800000#32
  let main_v30 : FVec F S2x1024 .f32 := broadcastInDim S2x1024 ![] bcast_S_S2x1024 main_cst_10
  let main_v31 : IVec S2x1024 1 := cmpf .olt main_v29 main_v30
  let main_c_11 : IVec S_ 1 := constantI S_ 1 1#1
  let main_v32 : IVec S_ 1 := (fun x v => Host.reduce IntOp.andi x v reducesTo_S2x1024_S_d0_1 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S131072x1 .f32) (main_arg1 : FVec F S1024x1 .f32) (main_arg2 : FVec F S1024x1 .f32) (main_arg3 : FVec F S1024 .f32) (main_arg4 : FVec F S1024 .f32) (main_arg5 : FVec F S2x1024 .f32) (main_arg6 : FVec F S2x1024 .f32) (main_arg7 : FVec F S2 .f32) (main_arg8 : FVec F S2 .f32) (main_arg9 : FVec F S1024x1 .f32) (main_arg10 : FVec F S1024 .f32) (main_arg11 : FVec F S2x1024 .f32) (main_arg12 : FVec F S2 .f32) : IVec S_ 1 :=
  let main_v0 : FVec F S131072x1 .f32 := Host.absf main_arg0
  let main_cst : FVec F S_ .f32 := constant S_ .f32 0x7F800000#32
  let main_v1 : FVec F S131072x1 .f32 := broadcastInDim S131072x1 ![] bcast_S_S131072x1 main_cst
  let main_v2 : IVec S131072x1 1 := cmpf .olt main_v0 main_v1
  let main_c : IVec S_ 1 := constantI S_ 1 1#1
  let main_v3 : IVec S_ 1 := (fun x v => Host.reduce IntOp.andi x v reducesTo_S131072x1_S_d0_1 h_S_) main_v2 main_c
  let main_v4 : FVec F S1024x1 .f32 := Host.absf main_arg1
  let main_cst_0 : FVec F S_ .f32 := constant S_ .f32 0x7F800000#32
  let main_v5 : FVec F S1024x1 .f32 := broadcastInDim S1024x1 ![] bcast_S_S1024x1 main_cst_0
  let main_v6 : IVec S1024x1 1 := cmpf .olt main_v4 main_v5
  let main_c_1 : IVec S_ 1 := constantI S_ 1 1#1
  let main_v7 : IVec S_ 1 := (fun x v => Host.reduce IntOp.andi x v reducesTo_S1024x1_S_d0_1 h_S_) main_v6 main_c_1
  let main_v8 : IVec S_ 1 := andi main_v3 main_v7
  let main_v9 : FVec F S1024x1 .f32 := Host.absf main_arg2
  let main_cst_2 : FVec F S_ .f32 := constant S_ .f32 0x7F800000#32
  let main_v10 : FVec F S1024x1 .f32 := broadcastInDim S1024x1 ![] bcast_S_S1024x1 main_cst_2
  let main_v11 : IVec S1024x1 1 := cmpf .olt main_v9 main_v10
  let main_c_3 : IVec S_ 1 := constantI S_ 1 1#1
  let main_v12 : IVec S_ 1 := (fun x v => Host.reduce IntOp.andi x v reducesTo_S1024x1_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_arg9 main_arg10 main_arg11 main_arg12 main_v13 main_v16
-- ==== Kernel.lean ====
abbrev S131072x1 : Shape := ⟨2, ![131072, 1]⟩
abbrev S1024x1 : Shape := ⟨2, ![1024, 1]⟩
abbrev S1024 : Shape := ⟨1, ![1024]⟩
abbrev S2x1024 : Shape := ⟨2, ![2, 1024]⟩
abbrev S2 : Shape := ⟨1, ![2]⟩
abbrev S_ : Shape := ⟨0, ![]⟩
abbrev S1x131072 : Shape := ⟨2, ![1, 131072]⟩
abbrev S2x1 : Shape := ⟨2, ![2, 1]⟩
abbrev S1x4096 : Shape := ⟨2, ![1, 4096]⟩
abbrev S1024x4096 : Shape := ⟨2, ![1024, 4096]⟩
abbrev S2x4096 : Shape := ⟨2, ![2, 4096]⟩
abbrev S131072 : Shape := ⟨1, ![131072]⟩

abbrev nBuf : Space → Nat
  | .hbm => 184
  | .vmem => 10
  | .smem => 0
  | _ => 0

abbrev hbmTy0_0 (i : Nat) : BufTy := match i % 128 with
  | 0 => ⟨S131072x1, .f32⟩
  | 1 => ⟨S1024x1, .f32⟩
  | 2 => ⟨S1024x1, .f32⟩
  | 3 => ⟨S1024, .f32⟩
  | 4 => ⟨S1024, .f32⟩
  | 5 => ⟨S2x1024, .f32⟩
  | 6 => ⟨S2x1024, .f32⟩
  | 7 => ⟨S2, .f32⟩
  | 8 => ⟨S2, .f32⟩
  | 9 => ⟨S1024x1, .f32⟩
  | 10 => ⟨S1024, .f32⟩
  | 11 => ⟨S2x1024, .f32⟩
  | 12 => ⟨S2, .f32⟩
  | 13 => ⟨S_, .f32⟩
  | 14 => ⟨S1024x1, .f32⟩
  | 15 => ⟨S1024x1, .f32⟩
  | 16 => ⟨S1024x1, .f32⟩
  | 17 => ⟨S1024x1, .f32⟩
  | 18 => ⟨S1024x1, .i1⟩
  | 19 => ⟨S1024x1, .f32⟩
  | 20 => ⟨S1024x1, .f32⟩
  | 21 => ⟨S1024x1, .f32⟩
  | 22 => ⟨S1024x1, .f32⟩
  | 23 => ⟨S1024x1, .f32⟩
  | 24 => ⟨S1024x1, .f32⟩
  | 25 => ⟨S1024x1, .f32⟩
  | 26 => ⟨S1024x1, .f32⟩
  | 27 => ⟨S_, .f32⟩
  | 28 => ⟨S1024, .f32⟩
  | 29 => ⟨S1024, .f32⟩
  | 30 => ⟨S1024, .f32⟩
  | 31 => ⟨S1024, .f32⟩
  | 32 => ⟨S1024, .i1⟩
  | 33 => ⟨S1024, .f32⟩
  | 34 => ⟨S1024, .f32⟩
  | 35 => ⟨S1024, .f32⟩
  | 36 => ⟨S1024, .f32⟩
  | 37 => ⟨S1024, .f32⟩
  | 38 => ⟨S1024, .f32⟩
  | 39 => ⟨S1024, .f32⟩
  | 40 => ⟨S1024, .f32⟩
  | 41 => ⟨S_, .f32⟩
  | 42 => ⟨S2x1024, .f32⟩
  | 43 => ⟨S2x1024, .f32⟩
  | 44 => ⟨S2x1024, .f32⟩
  | 45 => ⟨S2x1024, .f32⟩
  | 46 => ⟨S2x1024, .i1⟩
  | 47 => ⟨S2x1024, .f32⟩
  | 48 => ⟨S2x1024, .f32⟩
  | 49 => ⟨S2x1024, .f32⟩
  | 50 => ⟨S2x1024, .f32⟩
  | 51 => ⟨S2x1024, .f32⟩
  | 52 => ⟨S2x1024, .f32⟩
  | 53 => ⟨S2x1024, .f32⟩
  | 54 => ⟨S2x1024, .f32⟩
  | 55 => ⟨S_, .f32⟩
  | 56 => ⟨S2, .f32⟩
  | 57 => ⟨S2, .f32⟩
  | 58 => ⟨S2, .f32⟩
  | 59 => ⟨S2, .f32⟩
  | 60 => ⟨S2, .i1⟩
  | 61 => ⟨S2, .f32⟩
  | 62 => ⟨S2, .f32⟩
  | 63 => ⟨S2, .f32⟩
  | 64 => ⟨S2, .f32⟩
  | 65 => ⟨S2, .f32⟩
  | 66 => ⟨S2, .f32⟩
  | 67 => ⟨S2, .f32⟩
  | 68 => ⟨S2, .f32⟩
  | 69 => ⟨S1024x1, .f32⟩
  | 70 => ⟨S1024x1, .f32⟩
  | 71 => ⟨S1024, .f32⟩
  | 72 => ⟨S1024, .f32⟩
  | 73 => ⟨S2x1024, .f32⟩
  | 74 => ⟨S2x1024, .f32⟩
  | 75 => ⟨S2, .f32⟩
  | 76 => ⟨S2, .f32⟩
  | 77 => ⟨S_, .f32⟩
  | 78 => ⟨S1024x1, .f32⟩
  | 79 => ⟨S1024x1, .f32⟩
  | 80 => ⟨S1024x1, .f32⟩
  | 81 => ⟨S_, .f32⟩
  | 82 => ⟨S1024x1, .f32⟩
  | 83 => ⟨S1024x1, .f32⟩
  | 84 => ⟨S_, .f32⟩
  | 85 => ⟨S1024x1, .f32⟩
  | 86 => ⟨S1024x1, .f32⟩
  | 87 => ⟨S_, .f32⟩
  | 88 => ⟨S1024x1, .f32⟩
  | 89 => ⟨S1024x1, .f32⟩
  | 90 => ⟨S1024x1, .f32⟩
  | 91 => ⟨S1024x1, .f32⟩
  | 92 => ⟨S_, .f32⟩
  | 93 => ⟨S1024x1, .f32⟩
  | 94 => ⟨S1024x1, .f32⟩
  | 95 => ⟨S1024x1, .f32⟩
  | 96 => ⟨S1024x1, .f32⟩
  | 97 => ⟨S_, .f32⟩
  | 98 => ⟨S_, .f32⟩
  | 99 => ⟨S_, .f32⟩
  | 100 => ⟨S_, .f32⟩
  | 101 => ⟨S_, .f32⟩
  | 102 => ⟨S1024, .f32⟩
  | 103 => ⟨S1024, .f32⟩
  | 104 => ⟨S1024, .f32⟩
  | 105 => ⟨S_, .f32⟩
  | 106 => ⟨S1024, .f32⟩
  | 107 => ⟨S1024, .f32⟩
  | 108 => ⟨S_, .f32⟩
  | 109 => ⟨S1024, .f32⟩
  | 110 => ⟨S1024, .f32⟩
  | 111 => ⟨S_, .f32⟩
  | 112 => ⟨S1024, .f32⟩
  | 113 => ⟨S1024, .f32⟩
  | 114 => ⟨S1024, .f32⟩
  | 115 => ⟨S1024, .f32⟩
  | 116 => ⟨S_, .f32⟩
  | 117 => ⟨S1024, .f32⟩
  | 118 => ⟨S1024, .f32⟩
  | 119 => ⟨S1024, .f32⟩
  | 120 => ⟨S1024, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S2x1024, .f32⟩
  | _ => ⟨S131072x1, .f32⟩

abbrev hbmTy0_1 (i : Nat) : BufTy := match i % 128 with
  | 0 => ⟨S2x1024, .f32⟩
  | 1 => ⟨S2x1024, .f32⟩
  | 2 => ⟨S_, .f32⟩
  | 3 => ⟨S2x1024, .f32⟩
  | 4 => ⟨S2x1024, .f32⟩
  | 5 => ⟨S_, .f32⟩
  | 6 => ⟨S2x1024, .f32⟩
  | 7 => ⟨S2x1024, .f32⟩
  | 8 => ⟨S_, .f32⟩
  | 9 => ⟨S2x1024, .f32⟩
  | 10 => ⟨S2x1024, .f32⟩
  | 11 => ⟨S2x1024, .f32⟩
  | 12 => ⟨S2x1024, .f32⟩
  | 13 => ⟨S_, .f32⟩
  | 14 => ⟨S2x1024, .f32⟩
  | 15 => ⟨S2x1024, .f32⟩
  | 16 => ⟨S2x1024, .f32⟩
  | 17 => ⟨S2x1024, .f32⟩
  | 18 => ⟨S_, .f32⟩
  | 19 => ⟨S_, .f32⟩
  | 20 => ⟨S_, .f32⟩
  | 21 => ⟨S_, .f32⟩
  | 22 => ⟨S_, .f32⟩
  | 23 => ⟨S2, .f32⟩
  | 24 => ⟨S2, .f32⟩
  | 25 => ⟨S2, .f32⟩
  | 26 => ⟨S_, .f32⟩
  | 27 => ⟨S2, .f32⟩
  | 28 => ⟨S2, .f32⟩
  | 29 => ⟨S_, .f32⟩
  | 30 => ⟨S2, .f32⟩
  | 31 => ⟨S2, .f32⟩
  | 32 => ⟨S_, .f32⟩
  | 33 => ⟨S2, .f32⟩
  | 34 => ⟨S2, .f32⟩
  | 35 => ⟨S2, .f32⟩
  | 36 => ⟨S2, .f32⟩
  | 37 => ⟨S_, .f32⟩
  | 38 => ⟨S2, .f32⟩
  | 39 => ⟨S2, .f32⟩
  | 40 => ⟨S2, .f32⟩
  | 41 => ⟨S2, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S1x131072, .f32⟩
  | 49 => ⟨S1024x1, .f32⟩
  | 50 => ⟨S2x1, .f32⟩
  | 51 => ⟨S2x1024, .bf16⟩
  | 52 => ⟨S1x131072, .f32⟩
  | 53 => ⟨S1x131072, .f32⟩
  | 54 => ⟨S131072, .f32⟩
  | 55 => ⟨S131072, .f32⟩
  | _ => ⟨S131072x1, .f32⟩

abbrev hbmTy (i : Nat) : BufTy := match i / 128 with
  | 0 => hbmTy0_0 i
  | 1 => hbmTy0_1 i
  | _ => ⟨S131072x1, .f32⟩

abbrev bufTy : (tb : Table) → Fin (tcTables nBuf tb) → BufTy
  | .hbm, ⟨i, _⟩ => hbmTy i
  | .local _ .vmem, ⟨0, _⟩ => ⟨S1x4096, .f32⟩
  | .local _ .vmem, ⟨1, _⟩ => ⟨S1x4096, .f32⟩
  | .local _ .vmem, ⟨2, _⟩ => ⟨S1024x1, .f32⟩
  | .local _ .vmem, ⟨3, _⟩ => ⟨S1024x1, .f32⟩
  | .local _ .vmem, ⟨4, _⟩ => ⟨S2x1024, .bf16⟩
  | .local _ .vmem, ⟨5, _⟩ => ⟨S2x1, .f32⟩
  | .local _ .vmem, ⟨6, _⟩ => ⟨S1x4096, .f32⟩
  | .local _ .vmem, ⟨7, _⟩ => ⟨S1x4096, .f32⟩
  | .local _ .vmem, ⟨8, _⟩ => ⟨S1x4096, .f32⟩
  | .local _ .vmem, ⟨9, _⟩ => ⟨S1x4096, .f32⟩
  | _, _ => ⟨S131072x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_call0_cst : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_v0 : Ref sig .tc := ⟨.hbm, 26, rfl⟩
abbrev main_call1_cst : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_v6 : Ref sig .tc := ⟨.hbm, 34, rfl⟩
abbrev main_call1_v7 : Ref sig .tc := ⟨.hbm, 35, rfl⟩
abbrev main_call1_v8 : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_v1 : Ref sig .tc := ⟨.hbm, 40, rfl⟩
abbrev main_call2_cst : Ref sig .tc := ⟨.hbm, 41, rfl⟩
abbrev main_call2_v0 : Ref sig .tc := ⟨.hbm, 42, rfl⟩
abbrev main_call2_v1 : Ref sig .tc := ⟨.hbm, 43, rfl⟩
abbrev main_call2_v2 : Ref sig .tc := ⟨.hbm, 44, rfl⟩
abbrev main_call2_v3 : Ref sig .tc := ⟨.hbm, 45, rfl⟩
abbrev main_call2_v4 : Ref sig .tc := ⟨.hbm, 46, rfl⟩
abbrev main_call2_v5 : Ref sig .tc := ⟨.hbm, 47, rfl⟩
abbrev main_call2_v6 : Ref sig .tc := ⟨.hbm, 48, rfl⟩
abbrev main_call2_v7 : Ref sig .tc := ⟨.hbm, 49, rfl⟩
abbrev main_call2_v8 : Ref sig .tc := ⟨.hbm, 50, rfl⟩
abbrev main_call2_v9 : Ref sig .tc := ⟨.hbm, 51, rfl⟩
abbrev main_call2_v10 : Ref sig .tc := ⟨.hbm, 52, rfl⟩
abbrev main_call2_v11 : Ref sig .tc := ⟨.hbm, 53, rfl⟩
abbrev main_v2 : Ref sig .tc := ⟨.hbm, 54, rfl⟩
abbrev main_call3_cst : Ref sig .tc := ⟨.hbm, 55, rfl⟩
abbrev main_call3_v0 : Ref sig .tc := ⟨.hbm, 56, rfl⟩
abbrev main_call3_v1 : Ref sig .tc := ⟨.hbm, 57, rfl⟩
abbrev main_call3_v2 : Ref sig .tc := ⟨.hbm, 58, rfl⟩
abbrev main_call3_v3 : Ref sig .tc := ⟨.hbm, 59, rfl⟩
abbrev main_call3_v4 : Ref sig .tc := ⟨.hbm, 60, rfl⟩
abbrev main_call3_v5 : Ref sig .tc := ⟨.hbm, 61, rfl⟩
abbrev main_call3_v6 : Ref sig .tc := ⟨.hbm, 62, rfl⟩
abbrev main_call3_v7 : Ref sig .tc := ⟨.hbm, 63, rfl⟩
abbrev main_call3_v8 : Ref sig .tc := ⟨.hbm, 64, rfl⟩
abbrev main_call3_v9 : Ref sig .tc := ⟨.hbm, 65, rfl⟩
abbrev main_call3_v10 : Ref sig .tc := ⟨.hbm, 66, rfl⟩
abbrev main_call3_v11 : Ref sig .tc := ⟨.hbm, 67, rfl⟩
abbrev main_v3 : Ref sig .tc := ⟨.hbm, 68, rfl⟩
abbrev main_v4 : Ref sig .tc := ⟨.hbm, 69, rfl⟩
abbrev main_v5 : Ref sig .tc := ⟨.hbm, 70, rfl⟩
abbrev main_v6 : Ref sig .tc := ⟨.hbm, 71, rfl⟩
abbrev main_v7 : Ref sig .tc := ⟨.hbm, 72, rfl⟩
abbrev main_v8 : Ref sig .tc := ⟨.hbm, 73, rfl⟩
abbrev main_v9 : Ref sig .tc := ⟨.hbm, 74, rfl⟩
abbrev main_v10 : Ref sig .tc := ⟨.hbm, 75, rfl⟩
abbrev main_v11 : Ref sig .tc := ⟨.hbm, 76, rfl⟩
abbrev main_cst : Ref sig .tc := ⟨.hbm, 77, rfl⟩
abbrev main_v12 : Ref sig .tc := ⟨.hbm, 78, rfl⟩
abbrev main_v13 : Ref sig .tc := ⟨.hbm, 79, rfl⟩
abbrev main_v14 : Ref sig .tc := ⟨.hbm, 80, rfl⟩
abbrev main_cst_0 : Ref sig .tc := ⟨.hbm, 81, rfl⟩
abbrev main_v15 : Ref sig .tc := ⟨.hbm, 82, rfl⟩
abbrev main_v16 : Ref sig .tc := ⟨.hbm, 83, rfl⟩
abbrev main_cst_1 : Ref sig .tc := ⟨.hbm, 84, rfl⟩
abbrev main_v17 : Ref sig .tc := ⟨.hbm, 85, rfl⟩
abbrev main_v18 : Ref sig .tc := ⟨.hbm, 86, rfl⟩
abbrev main_cst_2 : Ref sig .tc := ⟨.hbm, 87, rfl⟩
abbrev main_v19 : Ref sig .tc := ⟨.hbm, 88, rfl⟩
abbrev main_v20 : Ref sig .tc := ⟨.hbm, 89, rfl⟩
abbrev main_v21 : Ref sig .tc := ⟨.hbm, 90, rfl⟩
abbrev main_v22 : Ref sig .tc := ⟨.hbm, 91, rfl⟩
abbrev main_cst_3 : Ref sig .tc := ⟨.hbm, 92, rfl⟩
abbrev main_v23 : Ref sig .tc := ⟨.hbm, 93, rfl⟩
abbrev main_v24 : Ref sig .tc := ⟨.hbm, 94, rfl⟩
abbrev main_v25 : Ref sig .tc := ⟨.hbm, 95, rfl⟩
abbrev main_v26 : Ref sig .tc := ⟨.hbm, 96, rfl⟩
abbrev main_cst_4 : Ref sig .tc := ⟨.hbm, 97, rfl⟩
abbrev main_v27 : Ref sig .tc := ⟨.hbm, 98, rfl⟩
abbrev main_cst_5 : Ref sig .tc := ⟨.hbm, 99, rfl⟩
abbrev main_v28 : Ref sig .tc := ⟨.hbm, 100, rfl⟩
abbrev main_cst_6 : Ref sig .tc := ⟨.hbm, 101, rfl⟩
abbrev main_v29 : Ref sig .tc := ⟨.hbm, 102, rfl⟩
abbrev main_v30 : Ref sig .tc := ⟨.hbm, 103, rfl⟩
abbrev main_v31 : Ref sig .tc := ⟨.hbm, 104, rfl⟩
abbrev main_cst_7 : Ref sig .tc := ⟨.hbm, 105, rfl⟩
abbrev main_v32 : Ref sig .tc := ⟨.hbm, 106, rfl⟩
abbrev main_v33 : Ref sig .tc := ⟨.hbm, 107, rfl⟩
abbrev main_cst_8 : Ref sig .tc := ⟨.hbm, 108, rfl⟩
abbrev main_v34 : Ref sig .tc := ⟨.hbm, 109, rfl⟩
abbrev main_v35 : Ref sig .tc := ⟨.hbm, 110, rfl⟩
abbrev main_cst_9 : Ref sig .tc := ⟨.hbm, 111, rfl⟩
abbrev main_v36 : Ref sig .tc := ⟨.hbm, 112, rfl⟩
abbrev main_v37 : Ref sig .tc := ⟨.hbm, 113, rfl⟩
abbrev main_v38 : Ref sig .tc := ⟨.hbm, 114, rfl⟩
abbrev main_v39 : Ref sig .tc := ⟨.hbm, 115, rfl⟩
abbrev main_cst_10 : Ref sig .tc := ⟨.hbm, 116, rfl⟩
abbrev main_v40 : Ref sig .tc := ⟨.hbm, 117, rfl⟩
abbrev main_v41 : Ref sig .tc := ⟨.hbm, 118, rfl⟩
abbrev main_v42 : Ref sig .tc := ⟨.hbm, 119, rfl⟩
abbrev main_v43 : Ref sig .tc := ⟨.hbm, 120, rfl⟩
abbrev main_cst_11 : Ref sig .tc := ⟨.hbm, 121, rfl⟩
abbrev main_v44 : Ref sig .tc := ⟨.hbm, 122, rfl⟩
abbrev main_cst_12 : Ref sig .tc := ⟨.hbm, 123, rfl⟩
abbrev main_v45 : Ref sig .tc := ⟨.hbm, 124, rfl⟩
abbrev main_v46 : Ref sig .tc := ⟨.hbm, 125, rfl⟩
abbrev main_cst_13 : Ref sig .tc := ⟨.hbm, 126, rfl⟩
abbrev main_v47 : Ref sig .tc := ⟨.hbm, 127, rfl⟩
abbrev main_v48 : Ref sig .tc := ⟨.hbm, 128, rfl⟩
abbrev main_v49 : Ref sig .tc := ⟨.hbm, 129, rfl⟩
abbrev main_cst_14 : Ref sig .tc := ⟨.hbm, 130, rfl⟩
abbrev main_v50 : Ref sig .tc := ⟨.hbm, 131, rfl⟩
abbrev main_v51 : Ref sig .tc := ⟨.hbm, 132, rfl⟩
abbrev main_cst_15 : Ref sig .tc := ⟨.hbm, 133, rfl⟩
abbrev main_v52 : Ref sig .tc := ⟨.hbm, 134, rfl⟩
abbrev main_v53 : Ref sig .tc := ⟨.hbm, 135, rfl⟩
abbrev main_cst_16 : Ref sig .tc := ⟨.hbm, 136, rfl⟩
abbrev main_v54 : Ref sig .tc := ⟨.hbm, 137, rfl⟩
abbrev main_v55 : Ref sig .tc := ⟨.hbm, 138, rfl⟩
abbrev main_v56 : Ref sig .tc := ⟨.hbm, 139, rfl⟩
abbrev main_v57 : Ref sig .tc := ⟨.hbm, 140, rfl⟩
abbrev main_cst_17 : Ref sig .tc := ⟨.hbm, 141, rfl⟩
abbrev main_v58 : Ref sig .tc := ⟨.hbm, 142, rfl⟩
abbrev main_v59 : Ref sig .tc := ⟨.hbm, 143, rfl⟩
abbrev main_v60 : Ref sig .tc := ⟨.hbm, 144, rfl⟩
abbrev main_v61 : Ref sig .tc := ⟨.hbm, 145, rfl⟩
abbrev main_cst_18 : Ref sig .tc := ⟨.hbm, 146, rfl⟩
abbrev main_v62 : Ref sig .tc := ⟨.hbm, 147, rfl⟩
abbrev main_cst_19 : Ref sig .tc := ⟨.hbm, 148, rfl⟩
abbrev main_v63 : Ref sig .tc := ⟨.hbm, 149, rfl⟩
abbrev main_cst_20 : Ref sig .tc := ⟨.hbm, 150, rfl⟩
abbrev main_v64 : Ref sig .tc := ⟨.hbm, 151, rfl⟩
abbrev main_v65 : Ref sig .tc := ⟨.hbm, 152, rfl⟩
abbrev main_v66 : Ref sig .tc := ⟨.hbm, 153, rfl⟩
abbrev main_cst_21 : Ref sig .tc := ⟨.hbm, 154, rfl⟩
abbrev main_v67 : Ref sig .tc := ⟨.hbm, 155, rfl⟩
abbrev main_v68 : Ref sig .tc := ⟨.hbm, 156, rfl⟩
abbrev main_cst_22 : Ref sig .tc := ⟨.hbm, 157, rfl⟩
abbrev main_v69 : Ref sig .tc := ⟨.hbm, 158, rfl⟩
abbrev main_v70 : Ref sig .tc := ⟨.hbm, 159, rfl⟩
abbrev main_cst_23 : Ref sig .tc := ⟨.hbm, 160, rfl⟩
abbrev main_v71 : Ref sig .tc := ⟨.hbm, 161, rfl⟩
abbrev main_v72 : Ref sig .tc := ⟨.hbm, 162, rfl⟩
abbrev main_v73 : Ref sig .tc := ⟨.hbm, 163, rfl⟩
abbrev main_v74 : Ref sig .tc := ⟨.hbm, 164, rfl⟩
abbrev main_cst_24 : Ref sig .tc := ⟨.hbm, 165, rfl⟩
abbrev main_v75 : Ref sig .tc := ⟨.hbm, 166, rfl⟩
abbrev main_v76 : Ref sig .tc := ⟨.hbm, 167, rfl⟩
abbrev main_v77 : Ref sig .tc := ⟨.hbm, 168, rfl⟩
abbrev main_v78 : Ref sig .tc := ⟨.hbm, 169, rfl⟩
abbrev main_cst_25 : Ref sig .tc := ⟨.hbm, 170, rfl⟩
abbrev main_v79 : Ref sig .tc := ⟨.hbm, 171, rfl⟩
abbrev main_cst_26 : Ref sig .tc := ⟨.hbm, 172, rfl⟩
abbrev main_v80 : Ref sig .tc := ⟨.hbm, 173, rfl⟩
abbrev main_v81 : Ref sig .tc := ⟨.hbm, 174, rfl⟩
abbrev main_v82 : Ref sig .tc := ⟨.hbm, 175, rfl⟩
abbrev main_v83 : Ref sig .tc := ⟨.hbm, 176, rfl⟩
abbrev main_v84 : Ref sig .tc := ⟨.hbm, 177, rfl⟩
abbrev main_v85 : Ref sig .tc := ⟨.hbm, 178, rfl⟩
abbrev main_v86 : Ref sig .tc := ⟨.hbm, 179, rfl⟩
abbrev main_v87_0 : Ref sig .tc := ⟨.hbm, 180, rfl⟩
abbrev main_v87_1 : Ref sig .tc := ⟨.hbm, 181, rfl⟩
abbrev main_v88 : Ref sig .tc := ⟨.hbm, 182, rfl⟩
abbrev main_v89 : Ref sig .tc := ⟨.hbm, 183, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S1024x1 : S_.BroadcastsInDim S1024x1 (![] : Fin 0 → Fin S1024x1.rank)
  bcast_S_S1024 : S_.BroadcastsInDim S1024 (![] : Fin 0 → Fin S1024.rank)
  bcast_S_S2x1024 : S_.BroadcastsInDim S2x1024 (![] : Fin 0 → Fin S2x1024.rank)
  bcast_S_S2 : S_.BroadcastsInDim S2 (![] : Fin 0 → Fin S2.rank)
  reducesTo_S1024x1_S_d0_1 : S1024x1.ReducesTo [0, 1] S_
  h_S_ : 0 < S_.numel
  reducesTo_S1024_S_d0 : S1024.ReducesTo [0] S_
  reducesTo_S2x1024_S_d0_1 : S2x1024.ReducesTo [0, 1] S_
  reducesTo_S2_S_d0 : S2.ReducesTo [0] S_
  shapeCasts_S131072x1_S1x131072 : S131072x1.ShapeCasts S1x131072
  shapeCasts_S1024_S1024x1 : S1024.ShapeCasts S1024x1
  shapeCasts_S2_S2x1 : S2.ShapeCasts S2x1
  bitsLt_bf16_f32 : FTy.bits .bf16 < FTy.bits .f32
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x4096 : S1024x1.Broadcasts S1024x4096
  broadcasts_S1x4096_S1024x4096 : S1x4096.Broadcasts S1024x4096
  inb_S2x1024_S2x1024_0_0 : ∀ a, (![0, 0] : Fin 2 → Nat) a + S2x1024.size a ≤ S2x1024.size a
  h_S2x1024 : 0 < S2x1024.numel
  shapeCasts_S2x1024_S2x1024 : S2x1024.ShapeCasts S2x1024
  inb_S2x1_S2x1_0_0 : ∀ a, (![0, 0] : Fin 2 → Nat) a + S2x1.size a ≤ S2x1.size a
  h_S2x1 : 0 < S2x1.numel
  shapeCasts_S2x1_S2x1 : S2x1.ShapeCasts S2x1
  broadcasts_S2x1_S2x4096 : S2x1.Broadcasts S2x4096
  slices_S2x4096_o0_0_S1x4096 : S2x4096.Slices ![0, 0] S1x4096
  slices_S2x4096_o1_0_S1x4096 : S2x4096.Slices ![1, 0] S1x4096
  shapeCasts_S1x131072_S131072 : S1x131072.ShapeCasts S131072
  dot_S2x1024_S1024x4096_S2x4096_1_0_0_1_n_n_wf : DotDims.WF S2x1024 S1024x4096 S2x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096.size a ≤ S1x131072.size a
  hwx0_0 : ∀ i : grid0.Coords, EltTy.bits .f32 = 32 ∨ (Rect.block (s := S1x131072) S1x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S1024x1.size a
  hwx0_1 : ∀ i : grid0.Coords, EltTy.bits .f32 = 32 ∨ (Rect.block (s := S1024x1) S1024x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S1024x1.size a
  hwx0_2 : ∀ i : grid0.Coords, EltTy.bits .f32 = 32 ∨ (Rect.block (s := S1024x1) S1024x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x1024.size a ≤ S2x1024.size a
  hwx0_3 : ∀ i : grid0.Coords, EltTy.bits .bf16 = 32 ∨ (Rect.block (s := S2x1024) S2x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2x1.size a ≤ S2x1.size a
  hwx0_4 : ∀ i : grid0.Coords, EltTy.bits .f32 = 32 ∨ (Rect.block (s := S2x1) S2x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x131072.size a
  hwx0_5 : ∀ i : grid0.Coords, EltTy.bits .f32 = 32 ∨ (Rect.block (s := S1x131072) S1x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x4096.size a ≤ S1x131072.size a
  hwx0_6 : ∀ i : grid0.Coords, EltTy.bits .f32 = 32 ∨ (Rect.block (s := S1x131072) S1x4096.size (cc0_transform_6 i) (hinb0_6 i)).WholeWords (EltTy.packing .f32)

variable [Facts₀]

def dot_S2x1024_S1024x4096_S2x4096_1_0_0_1_n_n : DotDims S2x1024 S1024x4096 S2x4096 where
  lhsContracting := [1]
  rhsContracting := [0]
  lhsNonContracting := [0]
  rhsNonContracting := [1]
  lhsBatch := []
  rhsBatch := []
  wf := dot_S2x1024_S1024x4096_S2x4096_1_0_0_1_n_n_wf

abbrev win0_0 : Pipeline.Window sig grid0 :=
  Pipeline.Window.ofSpec (Memref.whole main_v83) S1x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1024x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v84) S1024x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v86) S2x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v85) S2x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v87_0) S1x4096.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v87_1) S1x4096.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S131072x1 : Shape := ⟨2, ![131072, 1]⟩
abbrev S1024x1 : Shape := ⟨2, ![1024, 1]⟩
abbrev S1024 : Shape := ⟨1, ![1024]⟩
abbrev S2x1024 : Shape := ⟨2, ![2, 1024]⟩
abbrev S2 : Shape := ⟨1, ![2]⟩
abbrev S_ : Shape := ⟨0, ![]⟩
abbrev S1x1024 : Shape := ⟨2, ![1, 1024]⟩
abbrev S131072x1024 : Shape := ⟨2, ![131072, 1024]⟩
abbrev S1024x2 : Shape := ⟨2, ![1024, 2]⟩
abbrev S131072x2 : Shape := ⟨2, ![131072, 2]⟩
abbrev S1x2 : Shape := ⟨2, ![1, 2]⟩
abbrev S131072 : Shape := ⟨1, ![131072]⟩

abbrev nBuf : Space → Nat
  | .hbm => 210
  | .vmem => 0
  | .smem => 0
  | _ => 0

abbrev hbmTy0_0 (i : Nat) : BufTy := match i % 128 with
  | 0 => ⟨S131072x1, .f32⟩
  | 1 => ⟨S1024x1, .f32⟩
  | 2 => ⟨S1024x1, .f32⟩
  | 3 => ⟨S1024, .f32⟩
  | 4 => ⟨S1024, .f32⟩
  | 5 => ⟨S2x1024, .f32⟩
  | 6 => ⟨S2x1024, .f32⟩
  | 7 => ⟨S2, .f32⟩
  | 8 => ⟨S2, .f32⟩
  | 9 => ⟨S1024x1, .f32⟩
  | 10 => ⟨S1024, .f32⟩
  | 11 => ⟨S2x1024, .f32⟩
  | 12 => ⟨S2, .f32⟩
  | 13 => ⟨S_, .f32⟩
  | 14 => ⟨S1024x1, .f32⟩
  | 15 => ⟨S1024x1, .f32⟩
  | 16 => ⟨S1024x1, .f32⟩
  | 17 => ⟨S1024x1, .f32⟩
  | 18 => ⟨S1024x1, .i1⟩
  | 19 => ⟨S1024x1, .f32⟩
  | 20 => ⟨S1024x1, .f32⟩
  | 21 => ⟨S1024x1, .f32⟩
  | 22 => ⟨S1024x1, .f32⟩
  | 23 => ⟨S1024x1, .f32⟩
  | 24 => ⟨S1024x1, .f32⟩
  | 25 => ⟨S1024x1, .f32⟩
  | 26 => ⟨S1024x1, .f32⟩
  | 27 => ⟨S_, .f32⟩
  | 28 => ⟨S1024, .f32⟩
  | 29 => ⟨S1024, .f32⟩
  | 30 => ⟨S1024, .f32⟩
  | 31 => ⟨S1024, .f32⟩
  | 32 => ⟨S1024, .i1⟩
  | 33 => ⟨S1024, .f32⟩
  | 34 => ⟨S1024, .f32⟩
  | 35 => ⟨S1024, .f32⟩
  | 36 => ⟨S1024, .f32⟩
  | 37 => ⟨S1024, .f32⟩
  | 38 => ⟨S1024, .f32⟩
  | 39 => ⟨S1024, .f32⟩
  | 40 => ⟨S1024, .f32⟩
  | 41 => ⟨S1024x1, .f32⟩
  | 42 => ⟨S1024x1, .f32⟩
  | 43 => ⟨S1024, .f32⟩
  | 44 => ⟨S1024, .f32⟩
  | 45 => ⟨S1x1024, .f32⟩
  | 46 => ⟨S131072x1024, .f32⟩
  | 47 => ⟨S1x1024, .f32⟩
  | 48 => ⟨S131072x1024, .f32⟩
  | 49 => ⟨S131072x1024, .f32⟩
  | 50 => ⟨S_, .f32⟩
  | 51 => ⟨S1024x1, .f32⟩
  | 52 => ⟨S1024x1, .f32⟩
  | 53 => ⟨S1024x1, .f32⟩
  | 54 => ⟨S_, .f32⟩
  | 55 => ⟨S1024x1, .f32⟩
  | 56 => ⟨S1024x1, .f32⟩
  | 57 => ⟨S_, .f32⟩
  | 58 => ⟨S1024x1, .f32⟩
  | 59 => ⟨S1024x1, .f32⟩
  | 60 => ⟨S_, .f32⟩
  | 61 => ⟨S1024x1, .f32⟩
  | 62 => ⟨S1024x1, .f32⟩
  | 63 => ⟨S1024x1, .f32⟩
  | 64 => ⟨S1024x1, .f32⟩
  | 65 => ⟨S_, .f32⟩
  | 66 => ⟨S1024x1, .f32⟩
  | 67 => ⟨S1024x1, .f32⟩
  | 68 => ⟨S1024x1, .f32⟩
  | 69 => ⟨S1024x1, .f32⟩
  | 70 => ⟨S_, .f32⟩
  | 71 => ⟨S_, .f32⟩
  | 72 => ⟨S_, .f32⟩
  | 73 => ⟨S_, .f32⟩
  | 74 => ⟨S_, .f32⟩
  | 75 => ⟨S1024, .f32⟩
  | 76 => ⟨S1024, .f32⟩
  | 77 => ⟨S1024, .f32⟩
  | 78 => ⟨S_, .f32⟩
  | 79 => ⟨S1024, .f32⟩
  | 80 => ⟨S1024, .f32⟩
  | 81 => ⟨S_, .f32⟩
  | 82 => ⟨S1024, .f32⟩
  | 83 => ⟨S1024, .f32⟩
  | 84 => ⟨S_, .f32⟩
  | 85 => ⟨S1024, .f32⟩
  | 86 => ⟨S1024, .f32⟩
  | 87 => ⟨S1024, .f32⟩
  | 88 => ⟨S1024, .f32⟩
  | 89 => ⟨S_, .f32⟩
  | 90 => ⟨S1024, .f32⟩
  | 91 => ⟨S1024, .f32⟩
  | 92 => ⟨S1024, .f32⟩
  | 93 => ⟨S1024, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S131072x1024, .f32⟩
  | 101 => ⟨S131072x1024, .f32⟩
  | 102 => ⟨S_, .f32⟩
  | 103 => ⟨S2x1024, .f32⟩
  | 104 => ⟨S2x1024, .f32⟩
  | 105 => ⟨S2x1024, .f32⟩
  | 106 => ⟨S2x1024, .f32⟩
  | 107 => ⟨S2x1024, .i1⟩
  | 108 => ⟨S2x1024, .f32⟩
  | 109 => ⟨S2x1024, .f32⟩
  | 110 => ⟨S2x1024, .f32⟩
  | 111 => ⟨S2x1024, .f32⟩
  | 112 => ⟨S2x1024, .f32⟩
  | 113 => ⟨S2x1024, .f32⟩
  | 114 => ⟨S2x1024, .f32⟩
  | 115 => ⟨S2x1024, .f32⟩
  | 116 => ⟨S_, .f32⟩
  | 117 => ⟨S2, .f32⟩
  | 118 => ⟨S2, .f32⟩
  | 119 => ⟨S2, .f32⟩
  | 120 => ⟨S2, .f32⟩
  | 121 => ⟨S2, .i1⟩
  | 122 => ⟨S2, .f32⟩
  | 123 => ⟨S2, .f32⟩
  | 124 => ⟨S2, .f32⟩
  | 125 => ⟨S2, .f32⟩
  | 126 => ⟨S2, .f32⟩
  | 127 => ⟨S2, .f32⟩
  | _ => ⟨S131072x1, .f32⟩

abbrev hbmTy0_1 (i : Nat) : BufTy := match i % 128 with
  | 0 => ⟨S2, .f32⟩
  | 1 => ⟨S2, .f32⟩
  | 2 => ⟨S2x1024, .f32⟩
  | 3 => ⟨S2x1024, .f32⟩
  | 4 => ⟨S2, .f32⟩
  | 5 => ⟨S2, .f32⟩
  | 6 => ⟨S1024x2, .f32⟩
  | 7 => ⟨S131072x2, .f32⟩
  | 8 => ⟨S1x2, .f32⟩
  | 9 => ⟨S131072x2, .f32⟩
  | 10 => ⟨S131072x2, .f32⟩
  | 11 => ⟨S_, .f32⟩
  | 12 => ⟨S2x1024, .f32⟩
  | 13 => ⟨S2x1024, .f32⟩
  | 14 => ⟨S2x1024, .f32⟩
  | 15 => ⟨S_, .f32⟩
  | 16 => ⟨S2x1024, .f32⟩
  | 17 => ⟨S2x1024, .f32⟩
  | 18 => ⟨S_, .f32⟩
  | 19 => ⟨S2x1024, .f32⟩
  | 20 => ⟨S2x1024, .f32⟩
  | 21 => ⟨S_, .f32⟩
  | 22 => ⟨S2x1024, .f32⟩
  | 23 => ⟨S2x1024, .f32⟩
  | 24 => ⟨S2x1024, .f32⟩
  | 25 => ⟨S2x1024, .f32⟩
  | 26 => ⟨S_, .f32⟩
  | 27 => ⟨S2x1024, .f32⟩
  | 28 => ⟨S2x1024, .f32⟩
  | 29 => ⟨S2x1024, .f32⟩
  | 30 => ⟨S2x1024, .f32⟩
  | 31 => ⟨S_, .f32⟩
  | 32 => ⟨S_, .f32⟩
  | 33 => ⟨S_, .f32⟩
  | 34 => ⟨S_, .f32⟩
  | 35 => ⟨S_, .f32⟩
  | 36 => ⟨S2, .f32⟩
  | 37 => ⟨S2, .f32⟩
  | 38 => ⟨S2, .f32⟩
  | 39 => ⟨S_, .f32⟩
  | 40 => ⟨S2, .f32⟩
  | 41 => ⟨S2, .f32⟩
  | 42 => ⟨S_, .f32⟩
  | 43 => ⟨S2, .f32⟩
  | 44 => ⟨S2, .f32⟩
  | 45 => ⟨S_, .f32⟩
  | 46 => ⟨S2, .f32⟩
  | 47 => ⟨S2, .f32⟩
  | 48 => ⟨S2, .f32⟩
  | 49 => ⟨S2, .f32⟩
  | 50 => ⟨S_, .f32⟩
  | 51 => ⟨S2, .f32⟩
  | 52 => ⟨S2, .f32⟩
  | 53 => ⟨S2, .f32⟩
  | 54 => ⟨S2, .f32⟩
  | 55 => ⟨S_, .f32⟩
  | 56 => ⟨S_, .f32⟩
  | 57 => ⟨S_, .f32⟩
  | 58 => ⟨S_, .f32⟩
  | 59 => ⟨S_, .f32⟩
  | 60 => ⟨S131072x1, .f32⟩
  | 61 => ⟨S131072, .f32⟩
  | 62 => ⟨S131072x1, .f32⟩
  | 63 => ⟨S131072, .f32⟩
  | 64 => ⟨S_, .f32⟩
  | 65 => ⟨S131072, .f32⟩
  | 66 => ⟨S131072, .f32⟩
  | 67 => ⟨S131072, .f32⟩
  | 68 => ⟨S131072, .f32⟩
  | 69 => ⟨S131072, .i1⟩
  | 70 => ⟨S131072, .f32⟩
  | 71 => ⟨S131072, .f32⟩
  | 72 => ⟨S131072, .f32⟩
  | 73 => ⟨S131072, .f32⟩
  | 74 => ⟨S131072, .f32⟩
  | 75 => ⟨S131072, .f32⟩
  | 76 => ⟨S131072, .f32⟩
  | 77 => ⟨S131072, .f32⟩
  | 78 => ⟨S_, .f32⟩
  | 79 => ⟨S131072, .f32⟩
  | 80 => ⟨S131072, .f32⟩
  | 81 => ⟨S_, .f32⟩
  | _ => ⟨S131072x1, .f32⟩

abbrev hbmTy (i : Nat) : BufTy := match i / 128 with
  | 0 => hbmTy0_0 i
  | 1 => hbmTy0_1 i
  | _ => ⟨S131072x1, .f32⟩

abbrev bufTy : (tb : Table) → Fin (tcTables nBuf tb) → BufTy
  | .hbm, ⟨i, _⟩ => hbmTy i
  | _, _ => ⟨S131072x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_call0_cst : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_v0 : Ref sig .tc := ⟨.hbm, 26, rfl⟩
abbrev main_call1_cst : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_v6 : Ref sig .tc := ⟨.hbm, 34, rfl⟩
abbrev main_call1_v7 : Ref sig .tc := ⟨.hbm, 35, rfl⟩
abbrev main_call1_v8 : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_v1 : Ref sig .tc := ⟨.hbm, 40, rfl⟩
abbrev main_v2 : Ref sig .tc := ⟨.hbm, 41, rfl⟩
abbrev main_v3 : Ref sig .tc := ⟨.hbm, 42, rfl⟩
abbrev main_v4 : Ref sig .tc := ⟨.hbm, 43, rfl⟩
abbrev main_v5 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_cst : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_cst_0 : Ref sig .tc := ⟨.hbm, 54, rfl⟩
abbrev main_v14 : Ref sig .tc := ⟨.hbm, 55, rfl⟩
abbrev main_v15 : Ref sig .tc := ⟨.hbm, 56, rfl⟩
abbrev main_cst_1 : Ref sig .tc := ⟨.hbm, 57, rfl⟩
abbrev main_v16 : Ref sig .tc := ⟨.hbm, 58, rfl⟩
abbrev main_v17 : Ref sig .tc := ⟨.hbm, 59, rfl⟩
abbrev main_cst_2 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_cst_3 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_cst_4 : Ref sig .tc := ⟨.hbm, 70, rfl⟩
abbrev main_v26 : Ref sig .tc := ⟨.hbm, 71, rfl⟩
abbrev main_cst_5 : Ref sig .tc := ⟨.hbm, 72, rfl⟩
abbrev main_v27 : Ref sig .tc := ⟨.hbm, 73, rfl⟩
abbrev main_cst_6 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_cst_7 : Ref sig .tc := ⟨.hbm, 78, rfl⟩
abbrev main_v31 : Ref sig .tc := ⟨.hbm, 79, rfl⟩
abbrev main_v32 : Ref sig .tc := ⟨.hbm, 80, rfl⟩
abbrev main_cst_8 : Ref sig .tc := ⟨.hbm, 81, rfl⟩
abbrev main_v33 : Ref sig .tc := ⟨.hbm, 82, rfl⟩
abbrev main_v34 : Ref sig .tc := ⟨.hbm, 83, rfl⟩
abbrev main_cst_9 : Ref sig .tc := ⟨.hbm, 84, rfl⟩
abbrev main_v35 : Ref sig .tc := ⟨.hbm, 85, rfl⟩
abbrev main_v36 : Ref sig .tc := ⟨.hbm, 86, rfl⟩
abbrev main_v37 : Ref sig .tc := ⟨.hbm, 87, rfl⟩
abbrev main_v38 : Ref sig .tc := ⟨.hbm, 88, rfl⟩
abbrev main_cst_10 : Ref sig .tc := ⟨.hbm, 89, rfl⟩
abbrev main_v39 : Ref sig .tc := ⟨.hbm, 90, rfl⟩
abbrev main_v40 : Ref sig .tc := ⟨.hbm, 91, rfl⟩
abbrev main_v41 : Ref sig .tc := ⟨.hbm, 92, rfl⟩
abbrev main_v42 : Ref sig .tc := ⟨.hbm, 93, rfl⟩
abbrev main_cst_11 : Ref sig .tc := ⟨.hbm, 94, rfl⟩
abbrev main_v43 : Ref sig .tc := ⟨.hbm, 95, rfl⟩
abbrev main_cst_12 : Ref sig .tc := ⟨.hbm, 96, rfl⟩
abbrev main_v44 : Ref sig .tc := ⟨.hbm, 97, rfl⟩
abbrev main_v45 : Ref sig .tc := ⟨.hbm, 98, rfl⟩
abbrev main_call2_cst : Ref sig .tc := ⟨.hbm, 99, rfl⟩
abbrev main_call2_v0 : Ref sig .tc := ⟨.hbm, 100, rfl⟩
abbrev main_v46 : Ref sig .tc := ⟨.hbm, 101, rfl⟩
abbrev main_call3_cst : Ref sig .tc := ⟨.hbm, 102, rfl⟩
abbrev main_call3_v0 : Ref sig .tc := ⟨.hbm, 103, rfl⟩
abbrev main_call3_v1 : Ref sig .tc := ⟨.hbm, 104, rfl⟩
abbrev main_call3_v2 : Ref sig .tc := ⟨.hbm, 105, rfl⟩
abbrev main_call3_v3 : Ref sig .tc := ⟨.hbm, 106, rfl⟩
abbrev main_call3_v4 : Ref sig .tc := ⟨.hbm, 107, rfl⟩
abbrev main_call3_v5 : Ref sig .tc := ⟨.hbm, 108, rfl⟩
abbrev main_call3_v6 : Ref sig .tc := ⟨.hbm, 109, rfl⟩
abbrev main_call3_v7 : Ref sig .tc := ⟨.hbm, 110, rfl⟩
abbrev main_call3_v8 : Ref sig .tc := ⟨.hbm, 111, rfl⟩
abbrev main_call3_v9 : Ref sig .tc := ⟨.hbm, 112, rfl⟩
abbrev main_call3_v10 : Ref sig .tc := ⟨.hbm, 113, rfl⟩
abbrev main_call3_v11 : Ref sig .tc := ⟨.hbm, 114, rfl⟩
abbrev main_v47 : Ref sig .tc := ⟨.hbm, 115, rfl⟩
abbrev main_call4_cst : Ref sig .tc := ⟨.hbm, 116, rfl⟩
abbrev main_call4_v0 : Ref sig .tc := ⟨.hbm, 117, rfl⟩
abbrev main_call4_v1 : Ref sig .tc := ⟨.hbm, 118, rfl⟩
abbrev main_call4_v2 : Ref sig .tc := ⟨.hbm, 119, rfl⟩
abbrev main_call4_v3 : Ref sig .tc := ⟨.hbm, 120, rfl⟩
abbrev main_call4_v4 : Ref sig .tc := ⟨.hbm, 121, rfl⟩
abbrev main_call4_v5 : Ref sig .tc := ⟨.hbm, 122, rfl⟩
abbrev main_call4_v6 : Ref sig .tc := ⟨.hbm, 123, rfl⟩
abbrev main_call4_v7 : Ref sig .tc := ⟨.hbm, 124, rfl⟩
abbrev main_call4_v8 : Ref sig .tc := ⟨.hbm, 125, rfl⟩
abbrev main_call4_v9 : Ref sig .tc := ⟨.hbm, 126, rfl⟩
abbrev main_call4_v10 : Ref sig .tc := ⟨.hbm, 127, rfl⟩
abbrev main_call4_v11 : Ref sig .tc := ⟨.hbm, 128, rfl⟩
abbrev main_v48 : Ref sig .tc := ⟨.hbm, 129, rfl⟩
abbrev main_v49 : Ref sig .tc := ⟨.hbm, 130, rfl⟩
abbrev main_v50 : Ref sig .tc := ⟨.hbm, 131, rfl⟩
abbrev main_v51 : Ref sig .tc := ⟨.hbm, 132, rfl⟩
abbrev main_v52 : Ref sig .tc := ⟨.hbm, 133, rfl⟩
abbrev main_v53 : Ref sig .tc := ⟨.hbm, 134, rfl⟩
abbrev main_v54 : Ref sig .tc := ⟨.hbm, 135, rfl⟩
abbrev main_v55 : Ref sig .tc := ⟨.hbm, 136, rfl⟩
abbrev main_v56 : Ref sig .tc := ⟨.hbm, 137, rfl⟩
abbrev main_v57 : Ref sig .tc := ⟨.hbm, 138, rfl⟩
abbrev main_cst_13 : Ref sig .tc := ⟨.hbm, 139, rfl⟩
abbrev main_v58 : Ref sig .tc := ⟨.hbm, 140, rfl⟩
abbrev main_v59 : Ref sig .tc := ⟨.hbm, 141, rfl⟩
abbrev main_v60 : Ref sig .tc := ⟨.hbm, 142, rfl⟩
abbrev main_cst_14 : Ref sig .tc := ⟨.hbm, 143, rfl⟩
abbrev main_v61 : Ref sig .tc := ⟨.hbm, 144, rfl⟩
abbrev main_v62 : Ref sig .tc := ⟨.hbm, 145, rfl⟩
abbrev main_cst_15 : Ref sig .tc := ⟨.hbm, 146, rfl⟩
abbrev main_v63 : Ref sig .tc := ⟨.hbm, 147, rfl⟩
abbrev main_v64 : Ref sig .tc := ⟨.hbm, 148, rfl⟩
abbrev main_cst_16 : Ref sig .tc := ⟨.hbm, 149, rfl⟩
abbrev main_v65 : Ref sig .tc := ⟨.hbm, 150, rfl⟩
abbrev main_v66 : Ref sig .tc := ⟨.hbm, 151, rfl⟩
abbrev main_v67 : Ref sig .tc := ⟨.hbm, 152, rfl⟩
abbrev main_v68 : Ref sig .tc := ⟨.hbm, 153, rfl⟩
abbrev main_cst_17 : Ref sig .tc := ⟨.hbm, 154, rfl⟩
abbrev main_v69 : Ref sig .tc := ⟨.hbm, 155, rfl⟩
abbrev main_v70 : Ref sig .tc := ⟨.hbm, 156, rfl⟩
abbrev main_v71 : Ref sig .tc := ⟨.hbm, 157, rfl⟩
abbrev main_v72 : Ref sig .tc := ⟨.hbm, 158, rfl⟩
abbrev main_cst_18 : Ref sig .tc := ⟨.hbm, 159, rfl⟩
abbrev main_v73 : Ref sig .tc := ⟨.hbm, 160, rfl⟩
abbrev main_cst_19 : Ref sig .tc := ⟨.hbm, 161, rfl⟩
abbrev main_v74 : Ref sig .tc := ⟨.hbm, 162, rfl⟩
abbrev main_cst_20 : Ref sig .tc := ⟨.hbm, 163, rfl⟩
abbrev main_v75 : Ref sig .tc := ⟨.hbm, 164, rfl⟩
abbrev main_v76 : Ref sig .tc := ⟨.hbm, 165, rfl⟩
abbrev main_v77 : Ref sig .tc := ⟨.hbm, 166, rfl⟩
abbrev main_cst_21 : Ref sig .tc := ⟨.hbm, 167, rfl⟩
abbrev main_v78 : Ref sig .tc := ⟨.hbm, 168, rfl⟩
abbrev main_v79 : Ref sig .tc := ⟨.hbm, 169, rfl⟩
abbrev main_cst_22 : Ref sig .tc := ⟨.hbm, 170, rfl⟩
abbrev main_v80 : Ref sig .tc := ⟨.hbm, 171, rfl⟩
abbrev main_v81 : Ref sig .tc := ⟨.hbm, 172, rfl⟩
abbrev main_cst_23 : Ref sig .tc := ⟨.hbm, 173, rfl⟩
abbrev main_v82 : Ref sig .tc := ⟨.hbm, 174, rfl⟩
abbrev main_v83 : Ref sig .tc := ⟨.hbm, 175, rfl⟩
abbrev main_v84 : Ref sig .tc := ⟨.hbm, 176, rfl⟩
abbrev main_v85 : Ref sig .tc := ⟨.hbm, 177, rfl⟩
abbrev main_cst_24 : Ref sig .tc := ⟨.hbm, 178, rfl⟩
abbrev main_v86 : Ref sig .tc := ⟨.hbm, 179, rfl⟩
abbrev main_v87 : Ref sig .tc := ⟨.hbm, 180, rfl⟩
abbrev main_v88 : Ref sig .tc := ⟨.hbm, 181, rfl⟩
abbrev main_v89 : Ref sig .tc := ⟨.hbm, 182, rfl⟩
abbrev main_cst_25 : Ref sig .tc := ⟨.hbm, 183, rfl⟩
abbrev main_v90 : Ref sig .tc := ⟨.hbm, 184, rfl⟩
abbrev main_cst_26 : Ref sig .tc := ⟨.hbm, 185, rfl⟩
abbrev main_v91 : Ref sig .tc := ⟨.hbm, 186, rfl⟩
abbrev main_v92 : Ref sig .tc := ⟨.hbm, 187, rfl⟩
abbrev main_v93 : Ref sig .tc := ⟨.hbm, 188, rfl⟩
abbrev main_v94 : Ref sig .tc := ⟨.hbm, 189, rfl⟩
abbrev main_v95 : Ref sig .tc := ⟨.hbm, 190, rfl⟩
abbrev main_v96 : Ref sig .tc := ⟨.hbm, 191, rfl⟩
abbrev main_call5_cst : Ref sig .tc := ⟨.hbm, 192, rfl⟩
abbrev main_call5_v0 : Ref sig .tc := ⟨.hbm, 193, rfl⟩
abbrev main_call5_v1 : Ref sig .tc := ⟨.hbm, 194, rfl⟩
abbrev main_call5_v2 : Ref sig .tc := ⟨.hbm, 195, rfl⟩
abbrev main_call5_v3 : Ref sig .tc := ⟨.hbm, 196, rfl⟩
abbrev main_call5_v4 : Ref sig .tc := ⟨.hbm, 197, rfl⟩
abbrev main_call5_v5 : Ref sig .tc := ⟨.hbm, 198, rfl⟩
abbrev main_call5_v6 : Ref sig .tc := ⟨.hbm, 199, rfl⟩
abbrev main_call5_v7 : Ref sig .tc := ⟨.hbm, 200, rfl⟩
abbrev main_call5_v8 : Ref sig .tc := ⟨.hbm, 201, rfl⟩
abbrev main_call5_v9 : Ref sig .tc := ⟨.hbm, 202, rfl⟩
abbrev main_call5_v10 : Ref sig .tc := ⟨.hbm, 203, rfl⟩
abbrev main_call5_v11 : Ref sig .tc := ⟨.hbm, 204, rfl⟩
abbrev main_v97 : Ref sig .tc := ⟨.hbm, 205, rfl⟩
abbrev main_cst_27 : Ref sig .tc := ⟨.hbm, 206, rfl⟩
abbrev main_v98 : Ref sig .tc := ⟨.hbm, 207, rfl⟩
abbrev main_v99 : Ref sig .tc := ⟨.hbm, 208, rfl⟩
abbrev main_v100 : Ref sig .tc := ⟨.hbm, 209, rfl⟩

abbrev nD : Nat := 1
abbrev τ : Topo := Topo.v7x

variable {F : FTy → Type} [FloatOps F]

class Facts₀ : Prop where
  bcast_S_S1024x1 : S_.BroadcastsInDim S1024x1 (![] : Fin 0 → Fin S1024x1.rank)
  bcast_S_S1024 : S_.BroadcastsInDim S1024 (![] : Fin 0 → Fin S1024.rank)
  transposes_S1024x1_S1x1024_1_0 : S1024x1.Transposes [1, 0] S1x1024
  bcast_S1024_S1x1024_1 : S1024.BroadcastsInDim S1x1024 (![1] : Fin 1 → Fin S1x1024.rank)
  bcast_S1x1024_S131072x1024_0_1 : S1x1024.BroadcastsInDim S131072x1024 (![0, 1] : Fin 2 → Fin S131072x1024.rank)
  reducesTo_S1024x1_S_d0_1 : S1024x1.ReducesTo [0, 1] S_
  h_S_ : 0 < S_.numel
  reducesTo_S1024_S_d0 : S1024.ReducesTo [0] S_
  bcast_S_S131072x1024 : S_.BroadcastsInDim S131072x1024 (![] : Fin 0 → Fin S131072x1024.rank)
  bcast_S_S2x1024 : S_.BroadcastsInDim S2x1024 (![] : Fin 0 → Fin S2x1024.rank)
  bcast_S_S2 : S_.BroadcastsInDim S2 (![] : Fin 0 → Fin S2.rank)
  transposes_S2x1024_S1024x2_1_0 : S2x1024.Transposes [1, 0] S1024x2
  bcast_S2_S1x2_1 : S2.BroadcastsInDim S1x2 (![1] : Fin 1 → Fin S1x2.rank)
  bcast_S1x2_S131072x2_0_1 : S1x2.BroadcastsInDim S131072x2 (![0, 1] : Fin 2 → Fin S131072x2.rank)
  reducesTo_S2x1024_S_d0_1 : S2x1024.ReducesTo [0, 1] S_
  reducesTo_S2_S_d0 : S2.ReducesTo [0] S_
  slices_S131072x2_S131072x1_0_0 : S131072x2.Slices ![0, 0] S131072x1
  shapeCasts_S131072x1_S131072 : S131072x1.ShapeCasts S131072
  slices_S131072x2_S131072x1_0_1 : S131072x2.Slices ![0, 1] S131072x1
  bcast_S_S131072 : S_.BroadcastsInDim S131072 (![] : Fin 0 → Fin S131072.rank)
  dot_S131072x1_S1x1024_S131072x1024_1_0_0_1_n_n_wf : DotDims.WF S131072x1 S1x1024 S131072x1024 [1] [0] [0] [1] [] []
  dot_S131072x1024_S1024x2_S131072x2_1_0_0_1_n_n_wf : DotDims.WF S131072x1024 S1024x2 S131072x2 [1] [0] [0] [1] [] []

variable [Facts₀]

def dot_S131072x1_S1x1024_S131072x1024_1_0_0_1_n_n : DotDims S131072x1 S1x1024 S131072x1024 where
  lhsContracting := [1]
  rhsContracting := [0]
  lhsNonContracting := [0]
  rhsNonContracting := [1]
  lhsBatch := []
  rhsBatch := []
  wf := dot_S131072x1_S1x1024_S131072x1024_1_0_0_1_n_n_wf
def dot_S131072x1024_S1024x2_S131072x2_1_0_0_1_n_n : DotDims S131072x1024 S1024x2 S131072x2 where
  lhsContracting := [1]
  rhsContracting := [0]
  lhsNonContracting := [0]
  rhsNonContracting := [1]
  lhsBatch := []
  rhsBatch := []
  wf := dot_S131072x1024_S1024x2_S131072x2_1_0_0_1_n_n_wf

class Facts : Prop extends Facts₀ where

variable [Facts]
-- ==== Proof.LibKeepdims.lean ====
/-
  A vector kept as a column, read at an index: the two layout steps a row reduction with a kept axis goes through.
  A length-`a` vector cast to an `a × 1` column holds entry `i` at `(i, 0)` (the row-major position is unchanged),
  and an `a × 1` column broadcast to `a × b` holds, all along row `i`, the column's entry `(i, 0)`.
  (The transposed form, a `1 × a` row broadcast down the columns, and the transpose itself are in the library.)
-/
import Idealize.ShloMosaic.Lib.Pipeline.Value
import Idealize.ShloMosaic.Lib.ValueIdx

namespace Cert.Keepdims

open Idealize.ShloMosaic Idealize.ShloMosaic.ValueIdx

variable {α : Type}

/-- A length-`a` vector cast to an `a × 1` column reads, at `(i, u)`, the vector at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to `a × b` reads, at `(i, j)`, the column at `(i, 0)`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

end Cert.Keepdims
-- ==== Proof.LibMatmul.lean ====
/-
  A matrix product read at an entry.

  At the exact instance a matrix-unit product into a zero accumulator is, entry by entry, the textbook contraction:
  for an M x K left operand and a K x N right operand, entry (p, q) is the sum over k of lhs(p, k) * rhs(k, q)
  (`matmul_zero_plain_apply`); when the right operand is given as N x K and contracted along its second axis
  (a product with the transpose), entry (p, q) is the sum over k of lhs(p, k) * rhs(q, k) (`matmul_zero_nt_apply`).
  The dimension records are the ones with exactly those contracting and free axes and no batch axis.
-/
import Idealize.ShloMosaic.PureOps.Ideal.Laws
import Idealize.ShloMosaic.Lib.ValueIdx

noncomputable section

namespace Cert.MatmulAt

open Idealize.ShloMosaic Idealize.ShloMosaic.ValueIdx

/-- Rows times columns: contract the left operand's second axis with the right operand's first. -/
abbrev plainDims {M K N : ℕ} (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- Rows times rows: contract the second axis of both operands. -/
abbrev ntDims {M K N : ℕ} (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ where
  lhsContracting := [1]
  rhsContracting := [1]
  lhsNonContracting := [0]
  rhsNonContracting := [0]
  lhsBatch := []
  rhsBatch := []
  wf := wf

theorem matmul_zero_plain_apply {M K N : ℕ} {φ₁ φ₂ : FTy}
    (wf : DotDims.WF ⟨2, ![M, K]⟩ ⟨2, ![K, N]⟩ ⟨2, ![M, N]⟩ [1] [0] [0] [1] [] [])
    (prec : Option ContractPrecision)
    (lhs : FVec Ideal ⟨2, ![M, K]⟩ φ₁) (rhs : FVec Ideal ⟨2, ![K, N]⟩ φ₂) (p : Fin M) (q : Fin N) :
    matmul (plainDims wf) prec lhs rhs (constant (F := Ideal) ⟨2, ![M, N]⟩ .f32 0x00000000#32) (ix2 p q)
      = ∑ k : Fin K, lhs (ix2 p k) * rhs (ix2 k q) := by
  simp only [matmul]
  rw [Ideal.matmul_constant_zero_apply, ← Equiv.sum_comp (contrEquiv1 (plainDims wf) K rfl rfl).symm]
  refine Finset.sum_congr rfl fun k _ => ?_
  have hk := contrEquiv1_symm_val (plainDims wf) K rfl rfl k
  have el : (plainDims wf).lhsIdx (ix2 p q) ((contrEquiv1 (plainDims wf) K rfl rfl).symm k) = ix2 p k :=
    funext fun a => Fin.ext (by
      match a with
      | ⟨0, _⟩ =>
        unfold DotDims.lhsIdx
        split
        · rename_i hb; exact absurd hb List.not_mem_nil
        · split
          · rfl
          · rename_i hn; exact absurd (List.mem_singleton_self _) hn
      | ⟨1, _⟩ => exact ((plainDims wf).lhsIdx_val_of_single rfl _ _).trans hk)
  have er : (plainDims wf).rhsIdx (ix2 p q) ((contrEquiv1 (plainDims wf) K rfl rfl).symm k) = ix2 k q :=
    funext fun a => Fin.ext (by
      match a with
      | ⟨0, _⟩ => exact ((plainDims wf).rhsIdx_val_of_single rfl _ _).trans hk
      | ⟨1, _⟩ =>
        unfold DotDims.rhsIdx
        split
        · rename_i hb; exact absurd hb List.not_mem_nil
        · split
          · rfl
          · rename_i hn; exact absurd (List.mem_singleton_self _) hn)
  rw [el, er]

theorem matmul_zero_nt_apply {M K N : ℕ} {φ₁ φ₂ : FTy}
    (wf : DotDims.WF ⟨2, ![M, K]⟩ ⟨2, ![N, K]⟩ ⟨2, ![M, N]⟩ [1] [1] [0] [0] [] [])
    (prec : Option ContractPrecision)
    (lhs : FVec Ideal ⟨2, ![M, K]⟩ φ₁) (rhs : FVec Ideal ⟨2, ![N, K]⟩ φ₂) (p : Fin M) (q : Fin N) :
    matmul (ntDims wf) prec lhs rhs (constant (F := Ideal) ⟨2, ![M, N]⟩ .f32 0x00000000#32) (ix2 p q)
      = ∑ k : Fin K, lhs (ix2 p k) * rhs (ix2 q k) := by
  simp only [matmul]
  rw [Ideal.matmul_constant_zero_apply, ← Equiv.sum_comp (contrEquiv1 (ntDims wf) K rfl rfl).symm]
  refine Finset.sum_congr rfl fun k _ => ?_
  have hk := contrEquiv1_symm_val (ntDims wf) K rfl rfl k
  have el : (ntDims wf).lhsIdx (ix2 p q) ((contrEquiv1 (ntDims wf) K rfl rfl).symm k) = ix2 p k :=
    funext fun a => Fin.ext (by
      match a with
      | ⟨0, _⟩ =>
        unfold DotDims.lhsIdx
        split
        · rename_i hb; exact absurd hb List.not_mem_nil
        · split
          · rfl
          · rename_i hn; exact absurd (List.mem_singleton_self _) hn
      | ⟨1, _⟩ => exact ((ntDims wf).lhsIdx_val_of_single rfl _ _).trans hk)
  have er : (ntDims wf).rhsIdx (ix2 p q) ((contrEquiv1 (ntDims wf) K rfl rfl).symm k) = ix2 q k :=
    funext fun a => Fin.ext (by
      match a with
      | ⟨0, _⟩ =>
        unfold DotDims.rhsIdx
        split
        · rename_i hb; exact absurd hb List.not_mem_nil
        · split
          · rfl
          · rename_i hn; exact absurd (List.mem_singleton_self _) hn
      | ⟨1, _⟩ => exact ((ntDims wf).rhsIdx_val_of_single rfl _ _).trans hk)
  rw [el, er]

end Cert.MatmulAt

end
-- ==== Proof.Spec.lean ====
/-
  The network both programs compute, entry by entry, on the extended reals.

  A sample is one number x(n). Hidden unit k is the rectified line  max (w1(k)·x(n) + b1(k)) 0 ; output unit j is
  the weighted sum  Σ_k w2(j,k)·hidden(n,k) + b2(j)  over the 1024 hidden units. The first result is output unit 0,
  the second is  c + softplus(output unit 1)  for a fixed word c, where softplus(y) = max y 0 + log(1 + exp(-|y - 0|))
  behind a test  y - 0 ≠ y - 0  that never fires on the extended reals.

  The two programs differ only in spelling: one writes the negation inside softplus as  0 - a , the other as  -a ;
  one orders a product weight·value, the other value·weight; one contracts the first layer over an axis of extent
  one. Multiplication on the extended reals is commutative and a sum over one term is that term, so no finiteness
  of the inputs is needed anywhere.
-/
import Idealize.ShloMosaic.PureOps.Ideal.Laws
import Idealize.ShloMosaic.Lib.ValueIdx

noncomputable section

namespace Cert.TwoLayer

open Idealize.ShloMosaic Idealize.ShloMosaic.ValueIdx

/-- The zero word both programs write, read at the exact instance. It is the number 0 (`zeroWord_eq`), but the two
    sides carry the same word, so it is only evaluated where a spelling needs it. -/
abbrev zeroWord : EReal := Ideal.ofBits .f32 0x00000000#32

theorem zeroWord_eq : zeroWord = 0 := Ideal.ofBits_zero_f32

/-- Subtracting from the zero word is negation. -/
theorem zeroWord_sub (a : EReal) : zeroWord - a = -a := by
  rw [zeroWord_eq, zero_sub]

/-- Hidden unit `k` on sample `n`: the rectified line `w1 k · x n + b1 k`. -/
def hidden (w1 : (⟨2, ![1024, 1]⟩ : Shape).Idx → EReal) (b1 : (⟨1, ![1024]⟩ : Shape).Idx → EReal)
    (x : (⟨2, ![131072, 1]⟩ : Shape).Idx → EReal) (n : Fin 131072) (k : Fin 1024) : EReal :=
  max (w1 (ix2 k (0 : Fin 1)) * x (ix2 n (0 : Fin 1)) + b1 (ix1 k)) zeroWord

/-- Output unit `j` on sample `n`: the weighted sum of the hidden units plus the unit's bias. -/
def output (w1 : (⟨2, ![1024, 1]⟩ : Shape).Idx → EReal) (b1 : (⟨1, ![1024]⟩ : Shape).Idx → EReal)
    (w2 : (⟨2, ![2, 1024]⟩ : Shape).Idx → EReal) (b2 : (⟨1, ![2]⟩ : Shape).Idx → EReal)
    (x : (⟨2, ![131072, 1]⟩ : Shape).Idx → EReal) (n : Fin 131072) (j : Fin 2) : EReal :=
  (∑ k : Fin 1024, w2 (ix2 j k) * hidden w1 b1 x n k) + b2 (ix1 j)

/-- softplus in the spelling with a plain negation: `max y 0 + log1p (exp (-|y - 0|))`, behind the test
    `y - 0 ≠ y - 0`. -/
def softplus (y : EReal) : EReal :=
  Scalar.select (Ideal.cmp .une (y - zeroWord) (y - zeroWord)) (y + zeroWord)
    (max y zeroWord + Ideal.log1p (Ideal.exp (-(max (y - zeroWord) (-(y - zeroWord))))))

/-- The spelling with the negation written `0 - a` and the test as the ordered `≠` is the same function: the two
    tests are one on a linear order, and `0 - a = -a`. -/
theorem softplus_sub_form (y : EReal) :
    Scalar.select (Ideal.cmp .one (y - zeroWord) (y - zeroWord)) (y + zeroWord)
      (max y zeroWord + Ideal.log1p (Ideal.exp (zeroWord - (max (y - zeroWord) (-(y - zeroWord)))))) = softplus y := by
  unfold softplus
  rw [zeroWord_sub]
  rfl

/-- The word added to the second result. -/
abbrev floorWord : EReal := Ideal.ofBits .f32 0x3727C5AC#32

/-- The second result at sample `n`. -/
def spread (w1 : (⟨2, ![1024, 1]⟩ : Shape).Idx → EReal) (b1 : (⟨1, ![1024]⟩ : Shape).Idx → EReal)
    (w2 : (⟨2, ![2, 1024]⟩ : Shape).Idx → EReal) (b2 : (⟨1, ![2]⟩ : Shape).Idx → EReal)
    (x : (⟨2, ![131072, 1]⟩ : Shape).Idx → EReal) (n : Fin 131072) : EReal :=
  floorWord + softplus (output w1 b1 w2 b2 x n (1 : Fin 2))

/-- A hidden unit with the product written value·weight and the first layer contracted over its one input
    coordinate is the same number. -/
theorem hidden_contracted (w1 : (⟨2, ![1024, 1]⟩ : Shape).Idx → EReal) (b1 : (⟨1, ![1024]⟩ : Shape).Idx → EReal)
    (x : (⟨2, ![131072, 1]⟩ : Shape).Idx → EReal) (n : Fin 131072) (k : Fin 1024) :
    max ((∑ q : Fin 1, x (ix2 n q) * w1 (ix2 k q)) + b1 (ix1 k)) zeroWord = hidden w1 b1 x n k := by
  unfold hidden
  rw [Fin.sum_univ_one, mul_comm]

/-- An output unit with each product written value·weight is the same number. -/
theorem output_swapped (w1 : (⟨2, ![1024, 1]⟩ : Shape).Idx → EReal) (b1 : (⟨1, ![1024]⟩ : Shape).Idx → EReal)
    (w2 : (⟨2, ![2, 1024]⟩ : Shape).Idx → EReal) (b2 : (⟨1, ![2]⟩ : Shape).Idx → EReal)
    (x : (⟨2, ![131072, 1]⟩ : Shape).Idx → EReal) (n : Fin 131072) (j : Fin 2) :
    (∑ k : Fin 1024, hidden w1 b1 x n k * w2 (ix2 j k)) + b2 (ix1 j) = output w1 b1 w2 b2 x n j := by
  unfold output
  exact congrArg (· + b2 (ix1 j)) (Finset.sum_congr rfl fun k _ => mul_comm _ _)

end Cert.TwoLayer

end
-- ==== Proof.TileValue.lean ====
/-
  One tile of the kernel, read at an entry.

  A tile takes 4096 samples x(0, q), the first layer's weights w1(k, 0) and biases b1(k, 0) as columns, the second
  layer's weights w2(j, k) and its biases b2(j, 0) as a column. Broadcasting the two columns along the samples and the
  samples down the hidden units, it forms the rectified hidden tile max (w1(k,0)·x(0,q) + b1(k,0)) 0, multiplies it
  from the left by w2 (a matrix product into a zero accumulator: a plain sum over the 1024 hidden units on the
  extended reals) and adds b2's column along the samples. Row 0 of the result is stored as it is; row 1 goes through
  softplus, spelt with `0 - a` for the negation, and has a fixed word added.
-/
import proofs.«180254_j26929444946732_2_alg».proof.Proof.Gen.KernelIdeal.Skeleton
import proofs.«180254_j26929444946732_2_alg».proof.Proof.LibKeepdims
import proofs.«180254_j26929444946732_2_alg».proof.Proof.LibMatmul
import proofs.«180254_j26929444946732_2_alg».proof.Proof.Spec
import Idealize.ShloMosaic.Lib.ValueLayout
import Idealize.ShloMosaic.Lib.Pipeline.Value

noncomputable section

namespace Cert.KernelIdeal.Tile

open Idealize.ShloMosaic Idealize.ShloMosaic.ValueIdx Cert.KernelIdeal Cert.KernelIdeal.Gen Cert.TwoLayer

/-- Entry (k, q) of the rectified hidden tile: the column w1 and the column b1 are constant along the samples, the
    row of samples is constant down the hidden units. -/
theorem hidden_tile_apply (x0 : FVec Ideal S1x4096 .f32) (x1 x2 : FVec Ideal S1024x1 .f32) (k : Fin 1024) (q : Fin 4096) :
    (maximumf (addf (mulf (broadcastTo S1024x4096 (shapeCast S1024x1 x1 Facts₀.shapeCasts_S1024x1_S1024x1) Facts₀.broadcasts_S1024x1_S1024x4096)
          (broadcastTo S1024x4096 (shapeCast S1x4096 x0 Facts₀.shapeCasts_S1x4096_S1x4096) Facts₀.broadcasts_S1x4096_S1024x4096))
        (broadcastTo S1024x4096 (shapeCast S1024x1 x2 Facts₀.shapeCasts_S1024x1_S1024x1) Facts₀.broadcasts_S1024x1_S1024x4096))
      (broadcast S1024x4096 (Scalar.ofBits (F := Ideal) .f32 0x00000000#32))) (ix2 k q)
    = max (x1 (ix2 k (0 : Fin 1)) * x0 (ix2 (0 : Fin 1) q) + x2 (ix2 k (0 : Fin 1))) zeroWord := by
  rw [shapeCast_self x1, shapeCast_self x0, shapeCast_self x2]
  show max (broadcastTo S1024x4096 x1 Facts₀.broadcasts_S1024x1_S1024x4096 (ix2 k q) * broadcastTo S1024x4096 x0 Facts₀.broadcasts_S1x4096_S1024x4096 (ix2 k q)
      + broadcastTo S1024x4096 x2 Facts₀.broadcasts_S1024x1_S1024x4096 (ix2 k q)) zeroWord = _
  rw [Cert.Keepdims.broadcastTo_a1_ab_apply x1, broadcastTo_1b_ab_apply x0, Cert.Keepdims.broadcastTo_a1_ab_apply x2]

/-- Entry (j, q) of the tile's affine stage: the weighted sum of the hidden tile's column q plus the bias of row j. -/
theorem affine_tile_apply (x0 : FVec Ideal S1x4096 .f32) (x1 x2 : FVec Ideal S1024x1 .f32) (x3 : FVec Ideal S2x1024 .bf16)
    (x4 : FVec Ideal S2x1 .f32) (j : Fin 2) (q : Fin 4096) :
    k0_pay1 (F := Ideal) x0 x1 x2 x3 x4 (ix2 j q)
      = (∑ k : Fin 1024, x3 (ix2 j k) * max (x1 (ix2 k (0 : Fin 1)) * x0 (ix2 (0 : Fin 1) q) + x2 (ix2 k (0 : Fin 1))) zeroWord)
        + x4 (ix2 j (0 : Fin 1)) := by
  unfold k0_pay1
  refine (addf_apply _ _ _).trans (congrArg₂ (· + ·) ?_ ?_)
  · refine (Cert.MatmulAt.matmul_zero_plain_apply (M := 2) (K := 1024) (N := 4096)
      dot_S2x1024_S1024x4096_S2x4096_1_0_0_1_n_n_wf none _ _ j q).trans ?_
    refine Finset.sum_congr rfl fun k _ => ?_
    rw [shapeCast_self x3]
    exact congrArg (x3 (ix2 j k) * ·) (hidden_tile_apply x0 x1 x2 k q)
  · rw [shapeCast_self x4]
    exact Cert.Keepdims.broadcastTo_a1_ab_apply x4 _ j q

/-- The first stored row is row 0 of the affine stage. -/
theorem first_tile_apply (x0 : FVec Ideal S1x4096 .f32) (x1 x2 : FVec Ideal S1024x1 .f32) (x3 : FVec Ideal S2x1024 .bf16)
    (x4 : FVec Ideal S2x1 .f32) (q : Fin 4096) :
    k0_pay2 (F := Ideal) x0 x1 x2 x3 x4 (ix2 (0 : Fin 1) q) = k0_pay1 (F := Ideal) x0 x1 x2 x3 x4 (ix2 (0 : Fin 2) q) := by
  unfold k0_pay2
  exact slice2_axis0_apply 0 _ Facts₀.slices_S2x4096_o0_0_S1x4096 (0 : Fin 1) q (0 : Fin 2) rfl

/-- The second stored row is the fixed word plus softplus of row 1 of the affine stage: the body's spelling of
    softplus, with `0 - a` for the negation, is the plain one. -/
theorem second_tile_apply (x0 : FVec Ideal S1x4096 .f32) (x1 x2 : FVec Ideal S1024x1 .f32) (x3 : FVec Ideal S2x1024 .bf16)
    (x4 : FVec Ideal S2x1 .f32) (q : Fin 4096) :
    k0_pay3 (F := Ideal) x0 x1 x2 x3 x4 (ix2 (0 : Fin 1) q)
      = floorWord + softplus (k0_pay1 (F := Ideal) x0 x1 x2 x3 x4 (ix2 (1 : Fin 2) q)) := by
  have hrow : extractStridedSlice S1x4096 ![1, 0] (k0_pay1 (F := Ideal) x0 x1 x2 x3 x4) Facts₀.slices_S2x4096_o1_0_S1x4096 (ix2 (0 : Fin 1) q)
      = k0_pay1 (F := Ideal) x0 x1 x2 x3 x4 (ix2 (1 : Fin 2) q) :=
    slice2_axis0_apply 1 _ Facts₀.slices_S2x4096_o1_0_S1x4096 (0 : Fin 1) q (1 : Fin 2) rfl
  rw [← hrow]
  unfold k0_pay3
  exact congrArg (floorWord + ·) (softplus_sub_form _)

/-- The first stored row at any position of the tile: the tile's samples are read at the same position. -/
theorem first_tile_at (x0 : FVec Ideal S1x4096 .f32) (x1 x2 : FVec Ideal S1024x1 .f32) (x3 : FVec Ideal S2x1024 .bf16)
    (x4 : FVec Ideal S2x1 .f32) (y : S1x4096.Idx) :
    k0_pay2 (F := Ideal) x0 x1 x2 x3 x4 y
      = (∑ k : Fin 1024, x3 (ix2 (0 : Fin 2) k) * max (x1 (ix2 k (0 : Fin 1)) * x0 y + x2 (ix2 k (0 : Fin 1))) zeroWord)
        + x4 (ix2 (0 : Fin 2) (0 : Fin 1)) := by
  obtain ⟨u, q, rfl⟩ : ∃ (u : Fin 1) (q : Fin 4096), y = ix2 u q := ⟨y 0, y 1, eq_ix2 y⟩
  obtain rfl : u = 0 := Subsingleton.elim _ _
  rw [first_tile_apply, affine_tile_apply]

/-- The second stored row at any position of the tile. -/
theorem second_tile_at (x0 : FVec Ideal S1x4096 .f32) (x1 x2 : FVec Ideal S1024x1 .f32) (x3 : FVec Ideal S2x1024 .bf16)
    (x4 : FVec Ideal S2x1 .f32) (y : S1x4096.Idx) :
    k0_pay3 (F := Ideal) x0 x1 x2 x3 x4 y
      = floorWord + softplus ((∑ k : Fin 1024, x3 (ix2 (1 : Fin 2) k) * max (x1 (ix2 k (0 : Fin 1)) * x0 y + x2 (ix2 k (0 : Fin 1))) zeroWord)
        + x4 (ix2 (1 : Fin 2) (0 : Fin 1))) := by
  obtain ⟨u, q, rfl⟩ : ∃ (u : Fin 1) (q : Fin 4096), y = ix2 u q := ⟨y 0, y 1, eq_ix2 y⟩
  obtain rfl : u = 0 := Subsingleton.elim _ _
  rw [second_tile_apply, affine_tile_apply]

end Cert.KernelIdeal.Tile

end
-- ==== Proof.Rows.lean ====
/-
  The two output rows after the run, whole.

  The kernel walks the row of 131072 samples in 32 blocks of 4096. At grid point t it fetches block t of the samples
  and, whole, the first layer's weight and bias columns, the second layer's weights and its bias column; it writes
  block t of each output row. Entry i of output row one is therefore the second layer's unit 0 on sample i — the
  weighted sum over the hidden units of max (w1(k)·x(i) + b1(k)) 0 plus the bias — and entry i of row two the fixed
  word plus softplus of unit 1: the same function of the whole arrays at every block, and the blocks tile the row.
-/
import proofs.«180254_j26929444946732_2_alg».proof.Proof.Gen.KernelIdeal.Frame
import proofs.«180254_j26929444946732_2_alg».proof.Proof.TileValue

set_option maxRecDepth 16384

noncomputable section

namespace Cert.KernelIdeal.Rows

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.TwoLayer Cert.KernelIdeal.Tile

variable (m : (ℓ : Loc nD τ sig) → Buf (Elt Ideal) ℓ)

theorem hz : (![0, 0] : Fin 2 → Nat) = fun _ => 0 := funext fun a => by fin_cases a <;> rfl

/-- The second layer's unit `j` on the sample at position `i` of the row, from the arrays as the region finds them:
    the samples as a row, the first layer's weights and biases as columns, the second layer's weights, its biases as
    a column. -/
def rowAffine (xr : FVec Ideal S1x131072 .f32) (w1 b1c : FVec Ideal S1024x1 .f32) (w2 : FVec Ideal S2x1024 .bf16)
    (b2c : FVec Ideal S2x1 .f32) (j : Fin 2) (i : S1x131072.Idx) : EReal :=
  (∑ k : Fin 1024, w2 (ix2 j k) * max (w1 (ix2 k (0 : Fin 1)) * xr i + b1c (ix2 k (0 : Fin 1))) zeroWord) + b2c (ix2 j (0 : Fin 1))

/-- Output row one: unit 0. -/
def firstRow (xr : FVec Ideal S1x131072 .f32) (w1 b1c : FVec Ideal S1024x1 .f32) (w2 : FVec Ideal S2x1024 .bf16)
    (b2c : FVec Ideal S2x1 .f32) : S1x131072.Idx → EReal := fun i => rowAffine xr w1 b1c w2 b2c (0 : Fin 2) i

/-- Output row two: the fixed word plus softplus of unit 1. -/
def secondRow (xr : FVec Ideal S1x131072 .f32) (w1 b1c : FVec Ideal S1024x1 .f32) (w2 : FVec Ideal S2x1024 .bf16)
    (b2c : FVec Ideal S2x1 .f32) : S1x131072.Idx → EReal := fun i => floorWord + softplus (rowAffine xr w1 b1c w2 b2c (1 : Fin 2) i)

/-- The printed index maps, decided once over the 32 grid points: the samples' block and the two outputs' blocks are
    block `t` along the row; every other window is fetched whole. -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = t.val
    ∧ win0_6.index t (0 : Fin 2) = 0 ∧ win0_6.index t (1 : Fin 2) = t.val :=
  (by decide +kernel : ∀ t : Fin grid0.N, _)

set_option maxHeartbeats 4000000 in
/-- What grid point `t` writes back to output row one is block `t` of the whole row: the weights, biases and the
    second layer's arrays are fetched whole at every point, and the samples' block moves with the output's. -/
theorem flushed5_eq (c : Dev nD) (t : Fin cfg0.N) :
    (dats m 0 c).flushed 5 t = ((cfg0.win 5).blk t).view.read (Elt Ideal) (firstRow (V m c main_v83) (V m c main_v5) (V m c main_v84) (V m c main_v86) (V m c main_v85)) := by
  show (cfg0.win 5).cut (grid0.coords t) ((dats m 0 c).after 5 t) = _
  rw [after0_5]
  unfold out0_5
  rw [View.canon_unit_zero hz]
  simp only [View.ld_unit_zero (S := S1x4096) hz, View.ld_unit_zero (S := S1024x1) hz, View.ld_unit_zero (S := S2x1024) hz,
    View.ld_unit_zero (S := S2x1) hz]
  obtain ⟨e00, e01, e10, e11, e20, e21, e30, e31, e40, e41, e50, e51, e60, e61⟩ := idx_facts t
  funext y
  show k0_pay2 (F := Ideal) (iblk m c 0 t) (iblk m c 1 t) (iblk m c 2 t) (iblk m c 3 t) (iblk m c 4 t) y = firstRow (V m c main_v83) (V m c main_v5) (V m c main_v84) (V m c main_v86) (V m c main_v85) (((cfg0.win 5).blk t).view.emb y)
  refine (first_tile_at (iblk m c 0 t) (iblk m c 1 t) (iblk m c 2 t) (iblk m c 3 t) (iblk m c 4 t) y).trans ?_
  have h0 : ((cfg0.win 0).blk t).view.emb y = ((cfg0.win 5).blk t).view.emb y := by
    funext a; apply Fin.ext
    match a with
    | ⟨0, _⟩ => show win0_0.index t (0 : Fin 2) * 1 + 1 * (y 0).val = win0_5.index t (0 : Fin 2) * 1 + 1 * (y 0).val; omega
    | ⟨1, _⟩ => show win0_0.index t (1 : Fin 2) * 4096 + 1 * (y 1).val = win0_5.index t (1 : Fin 2) * 4096 + 1 * (y 1).val; omega
  have h1 : ∀ z : S1024x1.Idx, ((cfg0.win 1).blk t).view.emb z = z := fun z => by
    funext a; apply Fin.ext
    match a with
    | ⟨0, _⟩ => show win0_1.index t (0 : Fin 2) * 1024 + 1 * (z 0).val = (z 0).val; omega
    | ⟨1, _⟩ => show win0_1.index t (1 : Fin 2) * 1 + 1 * (z 1).val = (z 1).val; omega
  have h2 : ∀ z : S1024x1.Idx, ((cfg0.win 2).blk t).view.emb z = z := fun z => by
    funext a; apply Fin.ext
    match a with
    | ⟨0, _⟩ => show win0_2.index t (0 : Fin 2) * 1024 + 1 * (z 0).val = (z 0).val; omega
    | ⟨1, _⟩ => show win0_2.index t (1 : Fin 2) * 1 + 1 * (z 1).val = (z 1).val; omega
  have h3 : ∀ z : S2x1024.Idx, ((cfg0.win 3).blk t).view.emb z = z := fun z => by
    funext a; apply Fin.ext
    match a with
    | ⟨0, _⟩ => show win0_3.index t (0 : Fin 2) * 2 + 1 * (z 0).val = (z 0).val; omega
    | ⟨1, _⟩ => show win0_3.index t (1 : Fin 2) * 1024 + 1 * (z 1).val = (z 1).val; omega
  have h4 : ∀ z : S2x1.Idx, ((cfg0.win 4).blk t).view.emb z = z := fun z => by
    funext a; apply Fin.ext
    match a with
    | ⟨0, _⟩ => show win0_4.index t (0 : Fin 2) * 2 + 1 * (z 0).val = (z 0).val; omega
    | ⟨1, _⟩ => show win0_4.index t (1 : Fin 2) * 1 + 1 * (z 1).val = (z 1).val; omega
  have r0 : iblk m c 0 t y = V m c main_v83 (((cfg0.win 5).blk t).view.emb y) := by
    show V m c main_v83 (((cfg0.win 0).blk t).view.emb y) = _
    rw [h0]
  have r1 : ∀ z : S1024x1.Idx, iblk m c 1 t z = V m c main_v5 z := fun z => by
    show V m c main_v5 (((cfg0.win 1).blk t).view.emb z) = _
    rw [h1 z]
  have r2 : ∀ z : S1024x1.Idx, iblk m c 2 t z = V m c main_v84 z := fun z => by
    show V m c main_v84 (((cfg0.win 2).blk t).view.emb z) = _
    rw [h2 z]
  have r3 : ∀ z : S2x1024.Idx, iblk m c 3 t z = V m c main_v86 z := fun z => by
    show V m c main_v86 (((cfg0.win 3).blk t).view.emb z) = _
    rw [h3 z]
  have r4 : ∀ z : S2x1.Idx, iblk m c 4 t z = V m c main_v85 z := fun z => by
    show V m c main_v85 (((cfg0.win 4).blk t).view.emb z) = _
    rw [h4 z]
  rw [r0]
  simp only [r1, r2, r3, r4]
  unfold firstRow rowAffine
  rfl

/-- An index of the row is in point `t`'s block iff each coordinate is in the block's range on its axis. -/
theorem mem_blk5 (t : Fin cfg0.N) (i : S1x131072.Idx) :
    i ∈ ((cfg0.win 5).blk t).view.set ↔ ∀ a : Fin 2, win0_5.index t a * S1x4096.size a ≤ (i a).val ∧ (i a).val < win0_5.index t a * S1x4096.size a + S1x4096.size a := by
  show i ∈ ((View.whole main_v87_0).slice (win0_5.rect t)).set ↔ _
  rw [View.set_slice_whole, Rect.mem_set_unit]
  exact Iff.rfl

/-- The 32 blocks of 4096 samples tile the row: sample `p` is in the block of point `p / 4096`. -/
theorem cover5 (i : S1x131072.Idx) :
    ∃ t : Fin cfg0.N, (cfg0.win 5).flush t = true ∧ i ∈ ((cfg0.win 5).blk t).view.set := by
  have hi0 : (i 0).val < 1 := (i 0).isLt
  have hi1 : (i 1).val < 131072 := (i 1).isLt
  have ht : (i 1).val / 4096 < grid0.N := by rw [N_0]; omega
  obtain ⟨e00, e01, e10, e11, e20, e21, e30, e31, e40, e41, e50, e51, e60, e61⟩ := idx_facts ⟨(i 1).val / 4096, ht⟩
  refine ⟨⟨(i 1).val / 4096, ht⟩, flush0_5 _, ?_⟩
  rw [mem_blk5]
  intro a
  match a with
  | ⟨0, _⟩ =>
    show win0_5.index ⟨(i 1).val / 4096, ht⟩ (0 : Fin 2) * 1 ≤ (i 0).val ∧ (i 0).val < win0_5.index ⟨(i 1).val / 4096, ht⟩ (0 : Fin 2) * 1 + 1
    omega
  | ⟨1, _⟩ =>
    show win0_5.index ⟨(i 1).val / 4096, ht⟩ (1 : Fin 2) * 4096 ≤ (i 1).val ∧ (i 1).val < win0_5.index ⟨(i 1).val / 4096, ht⟩ (1 : Fin 2) * 4096 + 4096
    have hv : (⟨(i 1).val / 4096, ht⟩ : Fin cfg0.N).val = (i 1).val / 4096 := rfl
    omega

/-- Output row one after the run, whole. -/
theorem final5 (c : Dev nD) : (dats m 0 c).arrAt 5 cfg0.N = firstRow (V m c main_v83) (V m c main_v5) (V m c main_v84) (V m c main_v86) (V m c main_v85) :=
  (dats m 0 c).arrAt_eq_of_cover 5 _ (fun t _ => flushed5_eq m c t) cover5

set_option maxHeartbeats 4000000 in
/-- What grid point `t` writes back to output row two is block `t` of the whole row: the weights, biases and the
    second layer's arrays are fetched whole at every point, and the samples' block moves with the output's. -/
theorem flushed6_eq (c : Dev nD) (t : Fin cfg0.N) :
    (dats m 0 c).flushed 6 t = ((cfg0.win 6).blk t).view.read (Elt Ideal) (secondRow (V m c main_v83) (V m c main_v5) (V m c main_v84) (V m c main_v86) (V m c main_v85)) := by
  show (cfg0.win 6).cut (grid0.coords t) ((dats m 0 c).after 6 t) = _
  rw [after0_6]
  unfold out0_6
  rw [View.canon_unit_zero hz]
  simp only [View.ld_unit_zero (S := S1x4096) hz, View.ld_unit_zero (S := S1024x1) hz, View.ld_unit_zero (S := S2x1024) hz,
    View.ld_unit_zero (S := S2x1) hz]
  obtain ⟨e00, e01, e10, e11, e20, e21, e30, e31, e40, e41, e50, e51, e60, e61⟩ := idx_facts t
  funext y
  show k0_pay3 (F := Ideal) (iblk m c 0 t) (iblk m c 1 t) (iblk m c 2 t) (iblk m c 3 t) (iblk m c 4 t) y = secondRow (V m c main_v83) (V m c main_v5) (V m c main_v84) (V m c main_v86) (V m c main_v85) (((cfg0.win 6).blk t).view.emb y)
  refine (second_tile_at (iblk m c 0 t) (iblk m c 1 t) (iblk m c 2 t) (iblk m c 3 t) (iblk m c 4 t) y).trans ?_
  have h0 : ((cfg0.win 0).blk t).view.emb y = ((cfg0.win 6).blk t).view.emb y := by
    funext a; apply Fin.ext
    match a with
    | ⟨0, _⟩ => show win0_0.index t (0 : Fin 2) * 1 + 1 * (y 0).val = win0_6.index t (0 : Fin 2) * 1 + 1 * (y 0).val; omega
    | ⟨1, _⟩ => show win0_0.index t (1 : Fin 2) * 4096 + 1 * (y 1).val = win0_6.index t (1 : Fin 2) * 4096 + 1 * (y 1).val; omega
  have h1 : ∀ z : S1024x1.Idx, ((cfg0.win 1).blk t).view.emb z = z := fun z => by
    funext a; apply Fin.ext
    match a with
    | ⟨0, _⟩ => show win0_1.index t (0 : Fin 2) * 1024 + 1 * (z 0).val = (z 0).val; omega
    | ⟨1, _⟩ => show win0_1.index t (1 : Fin 2) * 1 + 1 * (z 1).val = (z 1).val; omega
  have h2 : ∀ z : S1024x1.Idx, ((cfg0.win 2).blk t).view.emb z = z := fun z => by
    funext a; apply Fin.ext
    match a with
    | ⟨0, _⟩ => show win0_2.index t (0 : Fin 2) * 1024 + 1 * (z 0).val = (z 0).val; omega
    | ⟨1, _⟩ => show win0_2.index t (1 : Fin 2) * 1 + 1 * (z 1).val = (z 1).val; omega
  have h3 : ∀ z : S2x1024.Idx, ((cfg0.win 3).blk t).view.emb z = z := fun z => by
    funext a; apply Fin.ext
    match a with
    | ⟨0, _⟩ => show win0_3.index t (0 : Fin 2) * 2 + 1 * (z 0).val = (z 0).val; omega
    | ⟨1, _⟩ => show win0_3.index t (1 : Fin 2) * 1024 + 1 * (z 1).val = (z 1).val; omega
  have h4 : ∀ z : S2x1.Idx, ((cfg0.win 4).blk t).view.emb z = z := fun z => by
    funext a; apply Fin.ext
    match a with
    | ⟨0, _⟩ => show win0_4.index t (0 : Fin 2) * 2 + 1 * (z 0).val = (z 0).val; omega
    | ⟨1, _⟩ => show win0_4.index t (1 : Fin 2) * 1 + 1 * (z 1).val = (z 1).val; omega
  have r0 : iblk m c 0 t y = V m c main_v83 (((cfg0.win 6).blk t).view.emb y) := by
    show V m c main_v83 (((cfg0.win 0).blk t).view.emb y) = _
    rw [h0]
  have r1 : ∀ z : S1024x1.Idx, iblk m c 1 t z = V m c main_v5 z := fun z => by
    show V m c main_v5 (((cfg0.win 1).blk t).view.emb z) = _
    rw [h1 z]
  have r2 : ∀ z : S1024x1.Idx, iblk m c 2 t z = V m c main_v84 z := fun z => by
    show V m c main_v84 (((cfg0.win 2).blk t).view.emb z) = _
    rw [h2 z]
  have r3 : ∀ z : S2x1024.Idx, iblk m c 3 t z = V m c main_v86 z := fun z => by
    show V m c main_v86 (((cfg0.win 3).blk t).view.emb z) = _
    rw [h3 z]
  have r4 : ∀ z : S2x1.Idx, iblk m c 4 t z = V m c main_v85 z := fun z => by
    show V m c main_v85 (((cfg0.win 4).blk t).view.emb z) = _
    rw [h4 z]
  rw [r0]
  simp only [r1, r2, r3, r4]
  unfold secondRow rowAffine
  rfl

/-- An index of the row is in point `t`'s block iff each coordinate is in the block's range on its axis. -/
theorem mem_blk6 (t : Fin cfg0.N) (i : S1x131072.Idx) :
    i ∈ ((cfg0.win 6).blk t).view.set ↔ ∀ a : Fin 2, win0_6.index t a * S1x4096.size a ≤ (i a).val ∧ (i a).val < win0_6.index t a * S1x4096.size a + S1x4096.size a := by
  show i ∈ ((View.whole main_v87_1).slice (win0_6.rect t)).set ↔ _
  rw [View.set_slice_whole, Rect.mem_set_unit]
  exact Iff.rfl

/-- The 32 blocks of 4096 samples tile the row: sample `p` is in the block of point `p / 4096`. -/
theorem cover6 (i : S1x131072.Idx) :
    ∃ t : Fin cfg0.N, (cfg0.win 6).flush t = true ∧ i ∈ ((cfg0.win 6).blk t).view.set := by
  have hi0 : (i 0).val < 1 := (i 0).isLt
  have hi1 : (i 1).val < 131072 := (i 1).isLt
  have ht : (i 1).val / 4096 < grid0.N := by rw [N_0]; omega
  obtain ⟨e00, e01, e10, e11, e20, e21, e30, e31, e40, e41, e50, e51, e60, e61⟩ := idx_facts ⟨(i 1).val / 4096, ht⟩
  refine ⟨⟨(i 1).val / 4096, ht⟩, flush0_6 _, ?_⟩
  rw [mem_blk6]
  intro a
  match a with
  | ⟨0, _⟩ =>
    show win0_6.index ⟨(i 1).val / 4096, ht⟩ (0 : Fin 2) * 1 ≤ (i 0).val ∧ (i 0).val < win0_6.index ⟨(i 1).val / 4096, ht⟩ (0 : Fin 2) * 1 + 1
    omega
  | ⟨1, _⟩ =>
    show win0_6.index ⟨(i 1).val / 4096, ht⟩ (1 : Fin 2) * 4096 ≤ (i 1).val ∧ (i 1).val < win0_6.index ⟨(i 1).val / 4096, ht⟩ (1 : Fin 2) * 4096 + 4096
    have hv : (⟨(i 1).val / 4096, ht⟩ : Fin cfg0.N).val = (i 1).val / 4096 := rfl
    omega

/-- Output row two after the run, whole. -/
theorem final6 (c : Dev nD) : (dats m 0 c).arrAt 6 cfg0.N = secondRow (V m c main_v83) (V m c main_v5) (V m c main_v84) (V m c main_v86) (V m c main_v85) :=
  (dats m 0 c).arrAt_eq_of_cover 6 _ (fun t _ => flushed6_eq m c t) cover6

end Cert.KernelIdeal.Rows

end
-- ==== Proof.KernelEntry.lean ====
/-
  What the region finds in its five input arrays, and the third result.

  Before the region the program draws the four parameter arrays from their means, spreads and noises and sums the
  four divergence terms; these are, operation for operation, the reference's own stages, so each is named by the
  reference's stage function and never opened. The region's inputs are then layout changes of those arrays: the
  samples as one row, the first-layer biases and the second-layer biases as columns, the second-layer weights
  narrowed to a shorter float format (the identity on the extended reals).
-/
import proofs.«180254_j26929444946732_2_alg».proof.Proof.Gen.KernelIdeal.Frame
import proofs.«180254_j26929444946732_2_alg».proof.Proof.Gen.ReferenceIdeal.Read
import Idealize.ShloMosaic.Lib.StableHlo.Run

set_option maxRecDepth 16384

noncomputable section

namespace Cert.KernelIdeal.Entry

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ)

/-- Reads one buffer after the host operations before the region: the five stretches joined into one list, then each
    operation's result rewritten at its own buffer. -/
local macro "read_entry" : tactic =>
  `(tactic| (dsimp only [Gen.V, Gen.V0]
             simp only [Gen.hostOps0, Gen.hostOps0_1, Gen.hostOps0_2, Gen.hostOps0_3, Gen.hostOps0_4, List.flatten_cons,
               List.flatten_nil, List.append_nil, List.cons_append, List.nil_append]
             after_results_simp))

set_option maxHeartbeats 40000000 in
/-- The samples as the region finds them: the column of samples laid out as one row. -/
theorem entry_samples (c : Dev nD) :
    (V m c main_v83 : S1x131072.Idx → EReal) = shapeCast S1x131072 (m ((c : Thread nD τ).loc main_arg0)) Facts₀.shapeCasts_S131072x1_S1x131072 := by
  read_entry <;> rfl

set_option maxHeartbeats 40000000 in
/-- The first-layer weights as the region finds them: the reference's own stage. -/
theorem entry_w1 (c : Dev nD) :
    (V m c main_v5 : S1024x1.Idx → EReal)
      = Cert.ReferenceIdeal.Read.val_main_v3 (F := Ideal) (m ((c : Thread nD τ).loc main_arg1)) (m ((c : Thread nD τ).loc main_arg2)) (m ((c : Thread nD τ).loc main_arg9)) := by
  read_entry <;> rfl

set_option maxHeartbeats 40000000 in
/-- The first-layer biases as the region finds them: the reference's own stage, as a column. -/
theorem entry_b1 (c : Dev nD) :
    (V m c main_v84 : S1024x1.Idx → EReal)
      = shapeCast S1024x1 (Cert.ReferenceIdeal.Read.val_main_v5 (F := Ideal) (m ((c : Thread nD τ).loc main_arg3)) (m ((c : Thread nD τ).loc main_arg4)) (m ((c : Thread nD τ).loc main_arg10)))
          Facts₀.shapeCasts_S1024_S1024x1 := by
  read_entry <;> rfl

set_option maxHeartbeats 40000000 in
/-- The second-layer weights as the region finds them: the reference's own stage (the change of float format is the
    identity on the extended reals). -/
theorem entry_w2 (c : Dev nD) :
    (V m c main_v86 : S2x1024.Idx → EReal)
      = Cert.ReferenceIdeal.Read.val_main_v50 (F := Ideal) (m ((c : Thread nD τ).loc main_arg5)) (m ((c : Thread nD τ).loc main_arg6)) (m ((c : Thread nD τ).loc main_arg11)) := by
  read_entry <;> rfl

set_option maxHeartbeats 40000000 in
/-- The second-layer biases as the region finds them: the reference's own stage, as a column. -/
theorem entry_b2 (c : Dev nD) :
    (V m c main_v85 : S2x1.Idx → EReal)
      = shapeCast S2x1 (Cert.ReferenceIdeal.Read.val_main_v52 (F := Ideal) (m ((c : Thread nD τ).loc main_arg7)) (m ((c : Thread nD τ).loc main_arg8)) (m ((c : Thread nD τ).loc main_arg12)))
          Facts₀.shapeCasts_S2_S2x1 := by
  read_entry <;> rfl

set_option maxHeartbeats 40000000 in
/-- The sum of the four divergence terms, computed before the region: the reference's own stage. -/
theorem entry_divergence (c : Dev nD) :
    (V m c main_v82 : S_.Idx → EReal)
      = Cert.ReferenceIdeal.Read.val_main_v100 (F := Ideal) (m ((c : Thread nD τ).loc main_arg1)) (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) (m ((c : Thread nD τ).loc main_arg8)) := by
  read_entry <;> rfl

end Cert.KernelIdeal.Entry

end
-- ==== Proof.RefStages.lean ====
/-
  The reference, read at a sample.

  The reference draws the four parameter arrays (first-layer weights and biases, second-layer weights and biases)
  from their means, spreads and noises; those four stages are taken here as they are and never opened. From them it
  forms x·w1ᵀ + b1 over all samples (a contraction over the one input coordinate), rectifies, multiplies by w2ᵀ
  (a contraction over the 1024 hidden units), adds b2, and cuts the two columns of the result apart: column 0 is the
  first result, column 1 goes through softplus and has a fixed word added. Read at sample n, each is the function
  the specification names; the index maps of the transposes, broadcasts, slices and reshapes are identified once.
-/
import proofs.«180254_j26929444946732_2_alg».proof.Proof.Gen.ReferenceIdeal.Read
import proofs.«180254_j26929444946732_2_alg».proof.Proof.Spec

noncomputable section

namespace Cert.ReferenceIdeal.Stages

open Idealize.ShloMosaic Idealize.ShloMosaic.ValueIdx Cert.ReferenceIdeal Cert.ReferenceIdeal.Read Cert.TwoLayer

/-! ## The index maps, at coordinates -/

theorem lidx7 (n : Fin 131072) (k : Fin 1024) (q : Fin 1) : lidx_main_v7 (ix2 n k) q = ix2 n q :=
  funext fun a => Fin.ext (by match a with | ⟨0, _⟩ => rfl | ⟨1, _⟩ => rfl)
theorem ridx7 (n : Fin 131072) (k : Fin 1024) (q : Fin 1) : ridx_main_v7 (ix2 n k) q = ix2 q k :=
  funext fun a => Fin.ext (by match a with | ⟨0, _⟩ => rfl | ⟨1, _⟩ => rfl)
theorem idx6 (q : Fin 1) (k : Fin 1024) : idx_main_v6 (ix2 q k) = ix2 k q :=
  funext fun a => Fin.ext (by match a with | ⟨0, _⟩ => rfl | ⟨1, _⟩ => rfl)
theorem idx9 (n : Fin 131072) (k : Fin 1024) : idx_main_v9 (ix2 n k) = ix2 (0 : Fin 1) k :=
  funext fun a => Fin.ext (by match a with | ⟨0, _⟩ => rfl | ⟨1, _⟩ => rfl)
theorem idx8 (u : Fin 1) (k : Fin 1024) : idx_main_v8 (ix2 u k) = ix1 k :=
  funext fun a => Fin.ext (by match a with | ⟨0, _⟩ => rfl)
theorem lidx54 (n : Fin 131072) (j : Fin 2) (k : Fin 1024) : lidx_main_v54 (ix2 n j) k = ix2 n k :=
  funext fun a => Fin.ext (by match a with | ⟨0, _⟩ => rfl | ⟨1, _⟩ => rfl)
theorem ridx54 (n : Fin 131072) (j : Fin 2) (k : Fin 1024) : ridx_main_v54 (ix2 n j) k = ix2 k j :=
  funext fun a => Fin.ext (by match a with | ⟨0, _⟩ => rfl | ⟨1, _⟩ => rfl)
theorem idx53 (k : Fin 1024) (j : Fin 2) : idx_main_v53 (ix2 k j) = ix2 j k :=
  funext fun a => Fin.ext (by match a with | ⟨0, _⟩ => rfl | ⟨1, _⟩ => rfl)
theorem idx56 (n : Fin 131072) (j : Fin 2) : idx_main_v56 (ix2 n j) = ix2 (0 : Fin 1) j :=
  funext fun a => Fin.ext (by match a with | ⟨0, _⟩ => rfl | ⟨1, _⟩ => rfl)
theorem idx55 (u : Fin 1) (j : Fin 2) : idx_main_v55 (ix2 u j) = ix1 j :=
  funext fun a => Fin.ext (by match a with | ⟨0, _⟩ => rfl)
/-- Column 0 of the two-column result, as a vector: sample `n` sits at `(n, 0)`. -/
theorem idx93_94 (n : Fin 131072) : idx_main_v93 (idx_main_v94 (ix1 n)) = ix2 n (0 : Fin 2) :=
  funext fun a => Fin.ext (by match a with | ⟨0, _⟩ => exact Nat.div_one _ | ⟨1, _⟩ => rfl)
/-- Column 1 of the two-column result, as a vector: sample `n` sits at `(n, 1)`. -/
theorem idx95_96 (n : Fin 131072) : idx_main_v95 (idx_main_v96 (ix1 n)) = ix2 n (1 : Fin 2) :=
  funext fun a => Fin.ext (by match a with | ⟨0, _⟩ => exact Nat.div_one _ | ⟨1, _⟩ => rfl)

/-! ## The stages at a sample -/

section
variable (x0 : (⟨S131072x1, .f32⟩ : BufTy).Contents (Elt Ideal)) (x1 x2 : (⟨S1024x1, .f32⟩ : BufTy).Contents (Elt Ideal))
  (x3 x4 : (⟨S1024, .f32⟩ : BufTy).Contents (Elt Ideal)) (x5 x6 : (⟨S2x1024, .f32⟩ : BufTy).Contents (Elt Ideal))
  (x7 x8 : (⟨S2, .f32⟩ : BufTy).Contents (Elt Ideal)) (x9 : (⟨S1024x1, .f32⟩ : BufTy).Contents (Elt Ideal))
  (x10 : (⟨S1024, .f32⟩ : BufTy).Contents (Elt Ideal)) (x11 : (⟨S2x1024, .f32⟩ : BufTy).Contents (Elt Ideal))
  (x12 : (⟨S2, .f32⟩ : BufTy).Contents (Elt Ideal))

/-- The rectified first layer at sample `n`, hidden unit `k`: the contraction over the one input coordinate is
    one product, written sample·weight. -/
theorem hidden_apply (n : Fin 131072) (k : Fin 1024) :
    val_main_v46 (F := Ideal) x0 x1 x2 x3 x4 x9 x10 (ix2 n k)
      = hidden (val_main_v3 (F := Ideal) x1 x2 x9) (val_main_v5 (F := Ideal) x3 x4 x10) x0 n k := by
  rw [val_main_v46_apply, val_main_v10_apply, val_main_v7_apply, val_main_v9_apply, val_main_v8_apply, val_main_call2_v0_apply,
    val_main_call2_cst_apply]
  simp only [val_main_v6_apply, lidx7, ridx7, idx6, idx9, idx8]
  exact hidden_contracted _ _ _ n k

/-- The second layer at sample `n`, output unit `j`: each product written hidden·weight. -/
theorem output_apply (n : Fin 131072) (j : Fin 2) :
    val_main_v57 (F := Ideal) x0 x1 x2 x3 x4 x5 x6 x7 x8 x9 x10 x11 x12 (ix2 n j)
      = output (val_main_v3 (F := Ideal) x1 x2 x9) (val_main_v5 (F := Ideal) x3 x4 x10) (val_main_v50 (F := Ideal) x5 x6 x11) (val_main_v52 (F := Ideal) x7 x8 x12) x0 n j := by
  rw [val_main_v57_apply, val_main_v54_apply, val_main_v56_apply, val_main_v55_apply]
  simp only [val_main_v53_apply, lidx54, ridx54, idx53, idx56, idx55, hidden_apply]
  exact output_swapped _ _ _ _ _ n j

/-- The first result at sample `n` is output unit 0. -/
theorem first_apply (n : Fin 131072) :
    val_main_v94 (F := Ideal) x0 x1 x2 x3 x4 x5 x6 x7 x8 x9 x10 x11 x12 (ix1 n) = output (val_main_v3 (F := Ideal) x1 x2 x9) (val_main_v5 (F := Ideal) x3 x4 x10) (val_main_v50 (F := Ideal) x5 x6 x11) (val_main_v52 (F := Ideal) x7 x8 x12) x0 n (0 : Fin 2) := by
  rw [val_main_v94_apply, val_main_v93_apply, idx93_94]
  exact output_apply x0 x1 x2 x3 x4 x5 x6 x7 x8 x9 x10 x11 x12 n 0

/-- The second result at sample `n` is the fixed word plus softplus of output unit 1. -/
theorem second_apply (n : Fin 131072) :
    val_main_v99 (F := Ideal) x0 x1 x2 x3 x4 x5 x6 x7 x8 x9 x10 x11 x12 (ix1 n) = spread (val_main_v3 (F := Ideal) x1 x2 x9) (val_main_v5 (F := Ideal) x3 x4 x10) (val_main_v50 (F := Ideal) x5 x6 x11) (val_main_v52 (F := Ideal) x7 x8 x12) x0 n := by
  have h96 : val_main_v96 (F := Ideal) x0 x1 x2 x3 x4 x5 x6 x7 x8 x9 x10 x11 x12 (ix1 n) = output (val_main_v3 (F := Ideal) x1 x2 x9) (val_main_v5 (F := Ideal) x3 x4 x10) (val_main_v50 (F := Ideal) x5 x6 x11) (val_main_v52 (F := Ideal) x7 x8 x12) x0 n (1 : Fin 2) := by
    rw [val_main_v96_apply, val_main_v95_apply, idx95_96]
    exact output_apply x0 x1 x2 x3 x4 x5 x6 x7 x8 x9 x10 x11 x12 n 1
  unfold spread
  rw [← h96]
  simp only [val_main_v99_apply, val_main_v98_apply, val_main_cst_27_apply, val_main_v97_apply, val_main_call5_v4_apply,
    val_main_call5_v6_apply, val_main_call5_v11_apply, val_main_call5_v1_apply, val_main_call5_v10_apply, val_main_call5_v9_apply,
    val_main_call5_v8_apply, val_main_call5_v7_apply, val_main_call5_v3_apply, val_main_call5_v0_apply, val_main_call5_v2_apply,
    val_main_call5_v5_apply, val_main_call5_cst_apply]
  rfl

end

end Cert.ReferenceIdeal.Stages

end
-- ==== Proof.LibColumnAsRow.lean ====
/-
  A column laid out as a row, read at an index.

  An `a × 1` column reshaped to a `1 × a` row keeps every entry at its row-major position, so the row holds at
  `(0, n)` what the column holds at `(n, 0)`. (The companion forms — a length-`a` vector as a column or as a row,
  a row read back as a vector — are in the library and in the keepdims lemmas.)
-/
import Idealize.ShloMosaic.Lib.Pipeline.Value
import Idealize.ShloMosaic.Lib.ValueIdx

namespace Cert.ColumnAsRow

open Idealize.ShloMosaic Idealize.ShloMosaic.ValueIdx

variable {α : Type}

/-- An `a × 1` column cast to a `1 × a` row reads, at `(u, n)`, the column at `(n, 0)`, whatever the unit coordinate `u`. -/
theorem shapeCast_a1_1a_apply {a : ℕ} (x : (⟨2, ![a, 1]⟩ : Shape).Idx → α)
    (h : (⟨2, ![a, 1]⟩ : Shape).ShapeCasts ⟨2, ![1, a]⟩) (u : Fin 1) (n : Fin a) :
    shapeCast ⟨2, ![1, a]⟩ x h (ix2 u n) = x (ix2 n (0 : Fin 1)) :=
  shapeCast_apply x h _ _ (by
    have hu : u.val = 0 := by omega
    rw [Shape.rowMajor_val_two, Shape.rowMajor_val_two]
    show n.val * 1 + 0 = u.val * a + n.val
    rw [hu, Nat.mul_one, Nat.add_zero, Nat.zero_mul, Nat.zero_add])

end Cert.ColumnAsRow
-- ==== Proof.Results.lean ====
/-
  The kernel's three results.

  After the region the program reads each output row as a vector; the third result was computed before the region.
  Entry n of the first result is the second layer's unit 0 on sample n and entry n of the second the fixed word plus
  softplus of unit 1, over the parameter arrays the program drew before the region — read through the layouts the
  region was given (the samples as a row, the biases as columns). These are the functions the reference's results
  are, sample by sample, so each result is stated as the reference's own result stage of the argument arrays.
-/
import proofs.«180254_j26929444946732_2_alg».proof.Proof.Rows
import proofs.«180254_j26929444946732_2_alg».proof.Proof.KernelEntry
import proofs.«180254_j26929444946732_2_alg».proof.Proof.RefStages
import proofs.«180254_j26929444946732_2_alg».proof.Proof.LibKeepdims
import proofs.«180254_j26929444946732_2_alg».proof.Proof.LibColumnAsRow
import Idealize.ShloMosaic.Lib.ValueLayout
import Idealize.ShloMosaic.Lib.StableHlo.Run

set_option maxRecDepth 16384

noncomputable section

namespace Cert.KernelIdeal.Results

open Idealize.ShloMosaic Idealize.ShloMosaic.TcCoe Idealize.ShloMosaic.ValueIdx Idealize.SL.Sem Idealize.ShloMosaic.StableHlo
open Cert.KernelIdeal Cert.KernelIdeal.Gen Cert.TwoLayer Cert.KernelIdeal.Rows Cert.KernelIdeal.Entry

/-- The whole-row unit `j` at position `n`, over the layouts the region is given, is output unit `j` on sample `n`
    over the arrays themselves. -/
theorem rowAffine_layout (x : FVec Ideal S131072x1 .f32) (w1 : FVec Ideal S1024x1 .f32) (b1 : FVec Ideal S1024 .f32)
    (w2 : FVec Ideal S2x1024 .bf16) (b2 : FVec Ideal S2 .f32) (hx : S131072x1.ShapeCasts S1x131072)
    (hb1 : S1024.ShapeCasts S1024x1) (hb2 : S2.ShapeCasts S2x1) (j : Fin 2) (n : Fin 131072) :
    rowAffine (shapeCast S1x131072 x hx) w1 (shapeCast S1024x1 b1 hb1) w2 (shapeCast S2x1 b2 hb2) j (ix2 (0 : Fin 1) n)
      = output w1 b1 w2 b2 x n j := by
  unfold rowAffine output Cert.TwoLayer.hidden
  rw [Cert.ColumnAsRow.shapeCast_a1_1a_apply x hx (0 : Fin 1) n, Cert.Keepdims.shapeCast_a_a1_apply b2 hb2 j (0 : Fin 1)]
  simp only [Cert.Keepdims.shapeCast_a_a1_apply b1 hb1 _ (0 : Fin 1)]

variable (m : (ℓ : Loc nD τ sig) → Buf (Elt Ideal) ℓ)

/-- Output row one, read as a vector, is the reference's first result stage of the argument arrays. -/
theorem first_eq (c : Dev nD) :
    shapeCast S131072 (firstRow (V m c main_v83) (V m c main_v5) (V m c main_v84) (V m c main_v86) (V m c main_v85))
        Facts₀.shapeCasts_S1x131072_S131072
      = Cert.ReferenceIdeal.Read.val_main_v94 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  funext i
  obtain ⟨n, rfl⟩ : ∃ n : Fin 131072, i = ix1 n := ⟨i 0, eq_ix1 i⟩
  rw [Cert.ReferenceIdeal.Stages.first_apply]
  refine (shapeCast_1a_a_apply _ _ n).trans ?_
  show rowAffine (V m c main_v83) (V m c main_v5) (V m c main_v84) (V m c main_v86) (V m c main_v85) (0 : Fin 2) (ix2 (0 : Fin 1) n) = _
  rw [entry_samples m c, entry_w1 m c, entry_b1 m c, entry_w2 m c, entry_b2 m c]
  exact rowAffine_layout _ _ _ _ _ _ _ _ 0 n

/-- Output row two, read as a vector, is the reference's second result stage of the argument arrays. -/
theorem second_eq (c : Dev nD) :
    shapeCast S131072 (secondRow (V m c main_v83) (V m c main_v5) (V m c main_v84) (V m c main_v86) (V m c main_v85))
        Facts₀.shapeCasts_S1x131072_S131072
      = Cert.ReferenceIdeal.Read.val_main_v99 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  funext i
  obtain ⟨n, rfl⟩ : ∃ n : Fin 131072, i = ix1 n := ⟨i 0, eq_ix1 i⟩
  rw [Cert.ReferenceIdeal.Stages.second_apply]
  refine (shapeCast_1a_a_apply _ _ n).trans ?_
  show floorWord + softplus (rowAffine (V m c main_v83) (V m c main_v5) (V m c main_v84) (V m c main_v86) (V m c main_v85) (1 : Fin 2) (ix2 (0 : Fin 1) n)) = _
  rw [entry_samples m c, entry_w1 m c, entry_b1 m c, entry_w2 m c, entry_b2 m c]
  unfold spread
  exact congrArg (fun y => floorWord + softplus y) (rowAffine_layout _ _ _ _ _ _ _ _ 1 n)

/-- The first result after the lines that follow the region. -/
theorem tail_first (c : Dev nD) :
    Pipeline.afterTail₀ cfgs (dats m) 0 (V0 m) [hostOps1] c main_v88 = Cert.ReferenceIdeal.Read.val_main_v94 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  unfold Pipeline.afterTail₀
  show StableHlo.after hostOps1 _ (Proc.devRef .tc main_v88) = _
  after_results
  exact (congrArg (fun A : S1x131072.Idx → EReal => shapeCast S131072 A Facts₀.shapeCasts_S1x131072_S131072)
    ((Pipeline.withArrays_arr spec0 launch0.win.arr_inj c _ _ 5).trans (final5 m c))).trans (first_eq m c)

/-- The second result after the lines that follow the region. -/
theorem tail_second (c : Dev nD) :
    Pipeline.afterTail₀ cfgs (dats m) 0 (V0 m) [hostOps1] c main_v89 = Cert.ReferenceIdeal.Read.val_main_v99 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  unfold Pipeline.afterTail₀
  show StableHlo.after hostOps1 _ (Proc.devRef .tc main_v89) = _
  after_results
  exact (congrArg (fun A : S1x131072.Idx → EReal => shapeCast S131072 A Facts₀.shapeCasts_S1x131072_S131072)
    ((Pipeline.withArrays_arr spec0 launch0.win.arr_inj c _ _ 6).trans (final6 m c))).trans (second_eq m c)

/-- The third result: no line after the region writes it and it is no array of the region, so it ends as the lines
    before the region left it. -/
theorem tail_third (c : Dev nD) :
    Pipeline.afterTail₀ cfgs (dats m) 0 (V0 m) [hostOps1] c main_v82 = Cert.ReferenceIdeal.Read.val_main_v100 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  unfold Pipeline.afterTail₀
  show StableHlo.after hostOps1 _ (Proc.devRef .tc main_v82) = _
  after_results
  exact (Pipeline.withArrays_of_ne spec0 c (V0 m c) _ main_v82 (by decide)).trans (entry_divergence m c)

/-- The kernel's run with its three results named and its arguments unchanged. -/
theorem run (ρ : Dev nD → PrngReg) :
    θ_run defs (onTc (τ := τ) (main (F := Ideal))) ⟨m, fun _ => 0, ρ⟩ (fun r => ∀ c : Dev nD,
      r.2.mem ((c : Thread nD τ).loc main_v88) = Cert.ReferenceIdeal.Read.val_main_v94 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))
      ∧ r.2.mem ((c : Thread nD τ).loc main_v89) = Cert.ReferenceIdeal.Read.val_main_v99 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))
      ∧ r.2.mem ((c : Thread nD τ).loc main_v82) = Cert.ReferenceIdeal.Read.val_main_v100 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)) :=
  (θ_run defs _ _).mono (fun r h c => ⟨
      ((h c).2 main_v88 (Pipeline.mem_restRefs_of main_v88 (by decide) (by decide))).trans (tail_first m c),
      ((h c).2 main_v89 (Pipeline.mem_restRefs_of main_v89 (by decide) (by decide))).trans (tail_second m c),
      ((h c).2 main_v82 (Pipeline.mem_restRefs_of main_v82 (by decide) (by decide))).trans (tail_third m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c)),
      (((h c).2 main_arg11 (Pipeline.mem_restRefs_of main_arg11 (by decide) (by decide))).trans (W_main_arg11 m (dats m) c)),
      (((h c).2 main_arg12 (Pipeline.mem_restRefs_of main_arg12 (by decide) (by decide))).trans (W_main_arg12 m (dats m) c))⟩)
    (run_main m ρ)

end Cert.KernelIdeal.Results

end
-- ==== Proof.lean ====
/-
  A two-layer perceptron with sampled parameters, on 131072 scalar samples.

  Both programs draw the first layer's weights and biases and the second layer's weights and biases as
  mean + softplus(spread)·noise, and sum four divergence terms of the means and spreads; both do this with the same
  operations, so those arrays and that sum are carried as the reference's own stages and never opened. The hidden
  layer is max (w1(k)·x(n) + b1(k)) 0 over 1024 units, the output layer Σ_k w2(j,k)·hidden(n,k) + b2(j) for two units;
  the results are unit 0, a fixed word plus softplus of unit 1, and the divergence sum.

  The kernel walks the samples as one row in 32 blocks of 4096, with the hidden units down the rows of a tile: it
  broadcasts the weight and bias columns along the samples, multiplies by w2 as a matrix product into a zero
  accumulator, and writes one block of each output row; the rows are read back as vectors. The reference forms
  x·w1ᵀ + b1 and relu(·)·w2ᵀ + b2 over all samples and cuts the two columns apart. On the extended reals the two agree
  sample by sample: the matrix products are plain sums over the hidden units, a sum over the one input coordinate is
  its term, multiplication is commutative, a change of float format is the identity, and the kernel's `0 - a` is the
  reference's `-a`. None of this uses that the inputs are finite.
-/
import proofs.«180254_j26929444946732_2_alg».proof.Defs
import proofs.«180254_j26929444946732_2_alg».proof.Proof.Gen.Kernel
import proofs.«180254_j26929444946732_2_alg».proof.Proof.Gen.Kernel.Skeleton
import proofs.«180254_j26929444946732_2_alg».proof.Proof.Gen.Kernel.Launch
import proofs.«180254_j26929444946732_2_alg».proof.Proof.Gen.Kernel.Points
import proofs.«180254_j26929444946732_2_alg».proof.Proof.Gen.Kernel.Frame
import proofs.«180254_j26929444946732_2_alg».proof.Proof.Gen.KernelIdeal
import proofs.«180254_j26929444946732_2_alg».proof.Proof.Gen.KernelIdeal.Skeleton
import proofs.«180254_j26929444946732_2_alg».proof.Proof.Gen.KernelIdeal.Launch
import proofs.«180254_j26929444946732_2_alg».proof.Proof.Gen.KernelIdeal.Points
import proofs.«180254_j26929444946732_2_alg».proof.Proof.Gen.KernelIdeal.Frame
import proofs.«180254_j26929444946732_2_alg».proof.Proof.Gen.ReferenceIdeal
import proofs.«180254_j26929444946732_2_alg».proof.Proof.Gen.ReferenceIdeal.Run
import proofs.«180254_j26929444946732_2_alg».proof.Proof.Gen.ReferenceIdeal.Read
import proofs.«180254_j26929444946732_2_alg».proof.Proof.Gen.Pre_finite_inputs
import proofs.«180254_j26929444946732_2_alg».proof.Proof.Results
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its reading on the extended reals. -/
theorem frame_kernel_ideal : Cert.frame_KernelIdeal := fun m ρ _ => Cert.KernelIdeal.Gen.frame m ρ

/-- The reference runs and leaves its arguments unchanged: its run with the three results dropped. -/
theorem frame_reference_ideal : Cert.frame_ReferenceIdeal := fun m ρ _ =>
  (θ_run Cert.ReferenceIdeal.defs _ _).mono (fun _ h c => (h c).2.2.2) (Cert.ReferenceIdeal.Value.run (F := Ideal) m ρ)

/-- From memories that agree on the thirteen arguments both programs end with the same three results: each is the
    reference's result stage of the argument arrays — for the kernel by the tile, row and layout lemmas, for the
    reference by its run. -/
theorem algebraic : Cert.algebraic_KernelIdeal_ReferenceIdeal := by
  intro m ρ m' ρ' _ hagree
  refine ⟨fun c => Cert.ReferenceIdeal.Read.val_main_v94 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)),
    fun c => Cert.ReferenceIdeal.Read.val_main_v99 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)),
    fun c => Cert.ReferenceIdeal.Read.val_main_v100 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    Cert.KernelIdeal.Results.run m ρ, ?_⟩
  refine (θ_run Cert.ReferenceIdeal.defs _ _).mono (fun _ h c => ?_) (Cert.ReferenceIdeal.Value.run (F := Ideal) m' ρ')
  obtain ⟨h0, h1, h2, hkeep⟩ := h c
  obtain ⟨a0, a1, a2, a3, a4, a5, a6, a7, a8, a9, a10, a11, a12⟩ := hagree c
  refine ⟨?_, ?_, ?_, hkeep⟩
  · refine (h0.trans (Cert.ReferenceIdeal.Read.val_main_v94_eq _ _ _ _ _ _ _ _ _ _ _ _ _)).trans ?_
    rw [a0, a1, a2, a3, a4, a5, a6, a7, a8, a9, a10, a11, a12]
  · refine (h1.trans (Cert.ReferenceIdeal.Read.val_main_v99_eq m' c)).trans ?_
    rw [a0, a1, a2, a3, a4, a5, a6, a7, a8, a9, a10, a11, a12]
  · refine (h2.trans (Cert.ReferenceIdeal.Read.val_main_v100_eq m' c)).trans ?_
    rw [a1, a2, a3, a4, a5, a6, a7, a8]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
